-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x128 : Shape := ⟨2, ![4096, 128]⟩
abbrev S65536x128 : Shape := ⟨2, ![65536, 128]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4096x128 .f32) (main_arg1 : FVec F S65536x128 .f32) (main_arg2 : IVec S1 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_c_2 : IVec S_ 32 := constantI S_ 32 0#32
  let main_v9 : IVec S1 32 := broadcastInDim S1 ![] bcast_S_S1 main_c_2
  let main_v10 : IVec S1 1 := cmpi .sge main_arg2 main_v9
  let main_c_3 : IVec S_ 32 := constantI S_ 32 0#32
  let main_v11 : IVec S1 32 := broadcastInDim S1 ![] bcast_S_S1 main_c_3
  let main_v12 : IVec S1 1 := cmpi .sle main_arg2 main_v11
  let main_v13 : IVec S1 1 := andi main_v10 main_v12
  let main_c_4 : IVec S_ 1 := constantI S_ 1 1#1
  let main_v14 : IVec S_ 1 := (fun x v => Host.reduce IntOp.andi x v reducesTo_S1_S_d0 h_S_) main_v13 main_c_4
  let main_v15 : IVec S_ 1 := andi main_v8 main_v14
  main_v15
-- ==== Kernel.lean ====
abbrev S4096x128 : Shape := ⟨2, ![4096, 128]⟩
abbrev S65536x128 : Shape := ⟨2, ![65536, 128]⟩
abbrev S1 : Shape := ⟨1, ![1]⟩
abbrev S16 : Shape := ⟨1, ![16]⟩
abbrev S128 : Shape := ⟨1, ![128]⟩
abbrev S256x128 : Shape := ⟨2, ![256, 128]⟩
abbrev S_ : Shape := ⟨0, ![]⟩
abbrev S128x128 : Shape := ⟨2, ![128, 128]⟩

abbrev nBuf : Table → Nat
  | .hbm => 4
  | .local .scVector .vmem => 4
  | _ => 0

abbrev bufTy : (tb : Table) → Fin (nBuf tb) → BufTy
  | .hbm, ⟨0, _⟩ => ⟨S4096x128, .f32⟩
  | .hbm, ⟨1, _⟩ => ⟨S65536x128, .f32⟩
  | .hbm, ⟨2, _⟩ => ⟨S1, .i32⟩
  | .hbm, ⟨3, _⟩ => ⟨S65536x128, .f32⟩
  | .local .scVector .vmem, ⟨0, _⟩ => ⟨S16, .i32⟩
  | .local .scVector .vmem, ⟨1, _⟩ => ⟨S128, .i32⟩
  | .local .scVector .vmem, ⟨2, _⟩ => ⟨S128, .i32⟩
  | .local .scVector .vmem, ⟨3, _⟩ => ⟨S256x128, .f32⟩
  | _, _ => ⟨S4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c0_i32_2_r1 : BitVec 32 := 0#32
  ![v1.toNat, 0]
def k0_mult2 (i : grid0.Coords) (v5 : BitVec 32) : BitVec 32 :=
  let arg1 : BitVec 32 := BitVec.ofNat 32 (i 1).val
  let c256_i32 : BitVec 32 := 256#32
  let v0 : BitVec 32 := Scalar.muli arg1 c256_i32
  let v1 : BitVec 32 := v0
  let v6 : BitVec 32 := Scalar.addi v5 v1
  let c65535_i32 : BitVec 32 := 65535#32
  let v7 : BitVec 32 := Scalar.andi v6 c65535_i32
  v7
def k0_cond1 (i : grid0.Coords) (v5 : BitVec 32) : BitVec 1 :=
  let c7_i32 : BitVec 32 := 7#32
  let v8 : BitVec 32 := Scalar.andi v5 c7_i32
  let c0_i32 : BitVec 32 := 0#32
  let v9 : BitVec 1 := Scalar.cmpi .eq v8 c0_i32
  let arg1 : BitVec 32 := BitVec.ofNat 32 (i 1).val
  let c256_i32 : BitVec 32 := 256#32
  let v0 : BitVec 32 := Scalar.muli arg1 c256_i32
  let v1 : BitVec 32 := v0
  let v6 : BitVec 32 := Scalar.addi v5 v1
  let c65535_i32 : BitVec 32 := 65535#32
  let v7 : BitVec 32 := Scalar.andi v6 c65535_i32
  let c65280_i32 : BitVec 32 := 65280#32
  let v10 : BitVec 1 := Scalar.cmpi .sle v7 c65280_i32
  let v11 : BitVec 1 := Scalar.andi v9 v10
  let v12 : BitVec 32 := Scalar.extui v11
  let c0_i32_0 : BitVec 32 := 0#32
  let v13 : BitVec 1 := Scalar.cmpi .ne v12 c0_i32_0
  v13

def k0_off2 (i : grid0.Coords) (v5 : BitVec 32) : Fin 2 → Nat :=
  let arg1 : BitVec 32 := BitVec.ofNat 32 (i 1).val
  let c256_i32 : BitVec 32 := 256#32
  let v0 : BitVec 32 := Scalar.muli arg1 c256_i32
  let v1 : BitVec 32 := v0
  let v6 : BitVec 32 := Scalar.addi v5 v1
  let c65535_i32 : BitVec 32 := 65535#32
  let v7 : BitVec 32 := Scalar.andi v6 c65535_i32
  let v17 : BitVec 32 := v7
  let c0_i32_2_r2 : BitVec 32 := 0#32
  ![v17.toNat, 0]

def k0_chk1 (i : grid0.Coords) (v5 : BitVec 32) : Prop :=
  (∀ (k0_h1 : k0_cond1 i v5 = 1#1), 8 ∣ (k0_mult2 i v5).toNat) ∧
  (∀ (k0_h1 : k0_cond1 i v5 = 1#1), ∀ a, (k0_off2 i v5) a + S256x128.size a ≤ S65536x128.size a)
instance k0_chk1.dec : ∀ (i : grid0.Coords) (v5 : BitVec 32), Decidable (k0_chk1 i v5) := fun i v5 => decidable_of_iff' _ (Iff.of_eq (k0_chk1.eq_1 i v5))
theorem k0_mult2_dvd : ∀ (i : grid0.Coords) (v5 : BitVec 32) (k0_hw1 : k0_chk1 i v5), ∀ (k0_h1 : k0_cond1 i v5 = 1#1), 8 ∣ (k0_mult2 i v5).toNat := fun i v5 k0_hw1 k0_h1 => k0_hw1.1 k0_h1
theorem k0_off2_inb : ∀ (i : grid0.Coords) (v5 : BitVec 32) (k0_hw1 : k0_chk1 i v5), ∀ (k0_h1 : k0_cond1 i v5 = 1#1), ∀ a, (k0_off2 i v5) a + S256x128.size a ≤ S65536x128.size a := fun i v5 k0_hw1 k0_h1 => k0_hw1.2 k0_h1

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S16_S1_0 : ∀ a, (![0] : Fin 1 → Nat) a + S1.size a ≤ S16.size a
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  iota_S16_d0_w32_scVector : S16.Iotas .scVector 32 [0]
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S256x128_S128x128_0_0 : ∀ a, (![0, 0] : Fin 2 → Nat) a + S128x128.size a ≤ S256x128.size a
  inb_S65536x128_S65536x128_0_0 : ∀ a, (![0, 0] : Fin 2 → Nat) a + S65536x128.size a ≤ S65536x128.size a
  gathers_S65536x128_S128x128 : S65536x128.Gathers 0 S128x128
  inb_S256x128_S128x128_128_0 : ∀ a, (![128, 0] : Fin 2 → Nat) a + S128x128.size a ≤ S256x128.size a
  hcc0_scratch4 : 0 + S_.numel ≤ 4
  hcc0_scoped0 : 1 + S_.numel ≤ 4
  hcc0_scoped1 : 2 + S_.numel ≤ 4
  hcc0_scoped2 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 256 ∣ (k0_mult1 i).toNat
  k0_off1_inb : ∀ i : grid0.Coords, ∀ a, (k0_off1 i) a + S256x128.size a ≤ S4096x128.size a

variable [Facts₀]

abbrev cc0_scratch4 : DmaSems sig S_ := SemArray.consecutive 0 S_ hcc0_scratch4
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

class Facts : Prop extends Facts₀ where

variable [Facts]
-- ==== ReferenceIdeal.lean ====
abbrev S4096x128 : Shape := ⟨2, ![4096, 128]⟩
abbrev S65536x128 : Shape := ⟨2, ![65536, 128]⟩
abbrev S1 : Shape := ⟨1, ![1]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S65536x128, .f32⟩
  | .hbm, ⟨2, _⟩ => ⟨S1, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S_, .i1⟩
  | .hbm, ⟨23, _⟩ => ⟨S4096, .i1⟩
  | .hbm, ⟨24, _⟩ => ⟨S4096, .i1⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S65536x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]

class Facts₀ : Prop where
  shapeCasts_S1_S_ : S1.ShapeCasts S_
  bcast_S_S4096 : S_.BroadcastsInDim S4096 (![] : Fin 0 → Fin S4096.rank)
  bcast_S4096_S4096x1_0 : S4096.BroadcastsInDim S4096x1 (![0] : Fin 1 → Fin S4096x1.rank)
  scatter_S65536x128_S4096x1_S4096x128_1_0_0_1_wf : ScatterDims.WF S65536x128 S4096x1 S4096x128 [1] [0] [0] 1

variable [Facts₀]

def scatter_S65536x128_S4096x1_S4096x128_1_0_0_1 : ScatterDims S65536x128 S4096x1 S4096x128 where
  updateWindowDims := [1]
  insertedWindowDims := [0]
  scatterDimsToOperandDims := [0]
  indexVectorDim := 1
  wf := scatter_S65536x128_S4096x1_S4096x128_1_0_0_1_wf

class Facts : Prop extends Facts₀ where

variable [Facts]
-- ==== Proof.PreFacts.lean ====
/-
  The certificate's precondition, read back. The printed predicate is a conjunction of three "all" reductions: every
  key finite, every queue entry finite, and the one pointer word both at least and at most zero as a signed integer.
  Here the third conjunct is decoded: the pointer word is the zero word. The three claims' preconditions state the
  predicate on every device, so each gives the pointer argument of that device's launch memory as the zero array.
-/
import proofs.«202126_g10411000725760_week1_w2_54_16_alg».proof.Proof.Gen.Pre_input_domain
import proofs.«202126_g10411000725760_week1_w2_54_16_alg».proof.Defs
import Idealize.ShloMosaic.Lib.ReduceAll
import Idealize.ShloMosaic.Lib.ValueIdx

namespace Cert.PreFacts

open Idealize.ShloMosaic Idealize.SL.Sem

/-- A rank-0 shape has one index. -/
instance : Subsingleton Cert.Pre_input_domain.S_.Idx := ⟨fun a b => funext fun d => d.elim0⟩

/-- A 32-bit word that reads, as a signed integer, both at least zero and at most zero is the zero word. -/
theorem word_zero (v : BitVec 32) (hge : IntOp.cmpi .sge v 0#32 = 1#1) (hle : IntOp.cmpi .sle v 0#32 = 1#1) :
    v = 0#32 := by
  have h0 : (0#32 : BitVec 32).toInt = 0 := by decide
  rw [IntOp.cmpi_sge, h0] at hge
  rw [IntOp.cmpi_sle, h0] at hle
  have hv : v.toInt = 0 := Int.le_antisymm hle hge
  exact BitVec.toInt_inj.1 (by rw [hv, h0])

/-- The precondition holding (its one result word is 1) makes the pointer array the zero array: of the three
    conjuncts only the last is read, the "all" over the one pointer word of `0 ≤ ptr ∧ ptr ≤ 0`. -/
theorem ptr_zero {F : FTy → Type} [FloatOps F]
    (a0 : FVec F Cert.Pre_input_domain.S4096x128 .f32) (a1 : FVec F Cert.Pre_input_domain.S65536x128 .f32)
    (a2 : IVec Cert.Pre_input_domain.S1 32)
    (h : Cert.Pre_input_domain.fn (F := F) a0 a1 a2 = fun _ => 1#1) : a2 = fun _ => (0#32 : BitVec 32) := by
  have e := congrFun h ValueIdx.ix0
  dsimp only [Cert.Pre_input_domain.fn] at e
  have e3 := (IntOp.andi_eq_one.1 e).2
  funext i
  have ei := Host.reduce_andi_all _ _ _ _ _ e3 i
  have ei' := IntOp.andi_eq_one.1 ei
  exact word_zero (a2 i) ei'.1 ei'.2

/-- The bit-exact kernel's pointer argument is zero on every device. -/
theorem kernel_ptr (m : (ℓ : Loc Cert.Kernel.nD Cert.Kernel.τ Cert.Kernel.sig) → Buf (Elt Bits) ℓ)
    (h : Cert.Pre_Kernel m) :
    ∀ c : Dev Cert.Kernel.nD,
      m ((c.tc : Thread Cert.Kernel.nD Cert.Kernel.τ).loc Cert.Kernel.main_arg2) = fun _ => (0#32 : BitVec 32) := by
  intro c; exact ptr_zero _ _ _ (h c)

/-- The idealized kernel's pointer argument is zero on every device. -/
theorem kernelIdeal_ptr
    (m : (ℓ : Loc Cert.KernelIdeal.nD Cert.KernelIdeal.τ Cert.KernelIdeal.sig) → Buf (Elt Ideal) ℓ)
    (h : Cert.Pre_KernelIdeal m) :
    ∀ c : Dev Cert.KernelIdeal.nD,
      m ((c.tc : Thread Cert.KernelIdeal.nD Cert.KernelIdeal.τ).loc Cert.KernelIdeal.main_arg2)
        = fun _ => (0#32 : BitVec 32) := by
  intro c; exact ptr_zero _ _ _ (h c)

/-- The idealized reference's pointer argument is zero on every device. -/
theorem reference_ptr
    (m : (ℓ : Loc Cert.ReferenceIdeal.nD Cert.ReferenceIdeal.τ Cert.ReferenceIdeal.sig) → Buf (Elt Ideal) ℓ)
    (h : Cert.Pre_ReferenceIdeal m) :
    ∀ c : Dev Cert.ReferenceIdeal.nD,
      m ((c.tc : Thread Cert.ReferenceIdeal.nD Cert.ReferenceIdeal.τ).loc Cert.ReferenceIdeal.main_arg2)
        = fun _ => (0#32 : BitVec 32) := by
  intro c; exact ptr_zero _ _ _ (h c)

end Cert.PreFacts
-- ==== Proof.RefOps.lean ====
/-
  The reference program's @main as one straight line of host operations: the five before the call of the
  remainder function, that function's twenty-one (its own call of the select helper listed in place, each value
  at the buffer the call's record names), and the nine after it, ending in the scatter that writes the key rows
  into the queue. Both sides are the same chain of steps once sequencing is re-associated.
-/
import proofs.«202126_g10411000725760_week1_w2_54_16_alg».proof.Proof.Gen.ReferenceIdeal
import Idealize.ShloMosaic.Lib.StableHlo.Run

noncomputable section

namespace Cert.Ref

open Cert.ReferenceIdeal Cert.ReferenceIdeal.Facts₀ Idealize.ShloMosaic Idealize.ShloMosaic.TcCoe Idealize.SL.Sem Idealize.ShloMosaic.StableHlo

variable {F : FTy → Type} [FloatOps F]

/-- @main's thirty-five operations, in order, the calls unfolded. -/
abbrev ops : List (HloOp τ sig (Elt F)) :=
  [ reshape main_arg2 main_v0 rfl shapeCasts_S1_S_,
    nullary main_v1 (iotaInDim S4096 32 0),
    unary main_v0 main_v2 (broadcastInDim S4096 ![] bcast_S_S4096 : (⟨S_, .i32⟩ : BufTy).Contents (Elt F) → (⟨S4096, .i32⟩ : BufTy).Contents (Elt F)),
    binary main_v2 main_v1 main_v3 (addi : (⟨S4096, .i32⟩ : BufTy).Contents (Elt F) → (⟨S4096, .i32⟩ : BufTy).Contents (Elt F) → (⟨S4096, .i32⟩ : BufTy).Contents (Elt F)),
    nullary main_c (constantI S_ 32 65536#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v3) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    nullary main_c_0 (constantI S_ 32 0#32),
    unary main_c_0 main_v5 (broadcastInDim S4096 ![] bcast_S_S4096 : (⟨S_, .i32⟩ : BufTy).Contents (Elt F) → (⟨S4096, .i32⟩ : BufTy).Contents (Elt F)),
    binary main_v4 main_v5 main_v6 (cmpi .slt : (⟨S4096, .i32⟩ : BufTy).Contents (Elt F) → (⟨S4096, .i32⟩ : BufTy).Contents (Elt F) → (⟨S4096, .i1⟩ : BufTy).Contents (Elt F)),
    nullary main_c_1 (constantI S_ 32 65536#32),
    unary main_c_1 main_v7 (broadcastInDim S4096 ![] bcast_S_S4096 : (⟨S_, .i32⟩ : BufTy).Contents (Elt F) → (⟨S4096, .i32⟩ : BufTy).Contents (Elt F)),
    binary main_v4 main_v7 main_v8 (addi : (⟨S4096, .i32⟩ : BufTy).Contents (Elt F) → (⟨S4096, .i32⟩ : BufTy).Contents (Elt F) → (⟨S4096, .i32⟩ : BufTy).Contents (Elt F)),
    ternary main_v6 main_v8 main_v4 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v9 main_v10 (broadcastInDim S4096x1 ![0] bcast_S4096_S4096x1_0 : (⟨S4096, .i32⟩ : BufTy).Contents (Elt F) → (⟨S4096x1, .i32⟩ : BufTy).Contents (Elt F)),
    ternary main_arg1 main_v10 main_arg0 main_v11 ((fun x i u => Host.scatter scatter_S65536x128_S4096x1_S4096x128_1_0_0_1 (fun _ b => b) x i u) : (⟨S65536x128, .f32⟩ : BufTy).Contents (Elt F) → (⟨S4096x1, .i32⟩ : BufTy).Contents (Elt F) → (⟨S4096x128, .f32⟩ : BufTy).Contents (Elt F) → (⟨S65536x128, .f32⟩ : BufTy).Contents (Elt F)) ]

-- thirty-five binds re-associated
set_option maxRecDepth 1024 in
/-- @main is that straight line: the two functions' definitions unfolded at their calls and the records at their
    fields, both sides are one chain of steps once sequencing is re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..,
    nullary_bufs_sub .., unary_bufs_sub .., binary_bufs_sub .., nullary_bufs_sub .., unary_bufs_sub ..,
    binary_bufs_sub .., ternary_bufs_sub .., unary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Ref

end
-- ==== Proof.Spec.lean ====
/-
  The specification both programs meet when the ring pointer is zero: an enqueue of 4096 keys into a queue of 65536
  rows overwrites rows 0 … 4095 with the keys, in order, and keeps every later row. Stated over plain index functions,
  for any element type, so that each side's proof can name the same term.
-/
import Idealize.ShloMosaic.PureOps
import Idealize.ShloMosaic.Lib.ValueIdx

namespace Cert.Spec

open Idealize.ShloMosaic

/-- The queue after the enqueue at pointer zero: row `r < 4096` is row `r` of the keys, every later row is the
    queue's own. -/
def enq {α : Type} (keys : (⟨2, ![4096, 128]⟩ : Shape).Idx → α) (queue : (⟨2, ![65536, 128]⟩ : Shape).Idx → α) :
    (⟨2, ![65536, 128]⟩ : Shape).Idx → α :=
  fun i => if h : (i 0).val < 4096 then keys (ValueIdx.ix2 (⟨(i 0).val, h⟩ : Fin 4096) (⟨(i 1).val, (i 1).isLt⟩ : Fin 128)) else queue i

theorem enq_of_lt {α : Type} (keys : (⟨2, ![4096, 128]⟩ : Shape).Idx → α) (queue : (⟨2, ![65536, 128]⟩ : Shape).Idx → α)
    (i : (⟨2, ![65536, 128]⟩ : Shape).Idx) (h : (i 0).val < 4096) :
    enq keys queue i = keys (ValueIdx.ix2 (⟨(i 0).val, h⟩ : Fin 4096) (⟨(i 1).val, (i 1).isLt⟩ : Fin 128)) := dif_pos h

theorem enq_of_ge {α : Type} (keys : (⟨2, ![4096, 128]⟩ : Shape).Idx → α) (queue : (⟨2, ![65536, 128]⟩ : Shape).Idx → α)
    (i : (⟨2, ![65536, 128]⟩ : Shape).Idx) (h : ¬ (i 0).val < 4096) : enq keys queue i = queue i := dif_neg h

end Cert.Spec
-- ==== Proof.RefScatter.lean ====
/-
  An overwriting scatter read at one index. The scatter is the left fold, over the update positions in row-major
  order, of the step that writes each update at the operand index it lands on. When every update lands inside the
  operand and no two land on the same index, the fold at an index is the update landing there, if there is one,
  and the operand's own element otherwise. Then the scatter of this program: one index per key row, window the
  128 columns, the index table holding at row k the word of k, so key row k lands on queue row k.
-/
import proofs.«202126_g10411000725760_week1_w2_54_16_alg».proof.Proof.Gen.ReferenceIdeal
import proofs.«202126_g10411000725760_week1_w2_54_16_alg».proof.Proof.Spec
import Idealize.ShloMosaic.Lib.ValueIdx

namespace Cert.Ref

open Idealize.ShloMosaic

section Fold

variable {ι κ α : Type} [DecidableEq ι]

/-- A fold of pointwise overwrites leaves an index that no step writes at what it was. -/
theorem foldl_overwrite_of_forall_ne (g : κ → ι) (v : κ → α) (i : ι) :
    ∀ (L : List κ) (x : ι → α), (∀ n ∈ L, g n ≠ i) →
      (L.foldl (fun r n => fun i' => if i' = g n then v n else r i') x) i = x i
  | [], _, _ => rfl
  | a :: t, x, h => by
    rw [List.foldl_cons, foldl_overwrite_of_forall_ne g v i t _ fun n hn => h n (List.mem_cons_of_mem _ hn)]
    exact if_neg fun e => h a List.mem_cons_self e.symm

/-- A fold of pointwise overwrites at pairwise distinct targets leaves, at the target of one of its steps, that
    step's value. -/
theorem foldl_overwrite_of_mem (g : κ → ι) (hg : Function.Injective g) (v : κ → α) (n0 : κ) :
    ∀ (L : List κ) (x : ι → α), L.Nodup → n0 ∈ L →
      (L.foldl (fun r n => fun i' => if i' = g n then v n else r i') x) (g n0) = v n0
  | [], _, _, h => nomatch h
  | a :: t, x, hnd, hmem => by
    rw [List.foldl_cons]
    rcases List.mem_cons.1 hmem with rfl | ht
    · rw [foldl_overwrite_of_forall_ne g v (g n0) t _ fun n hn e =>
        (List.nodup_cons.1 hnd).1 (hg e ▸ hn)]
      exact if_pos rfl
    · exact foldl_overwrite_of_mem g hg v n0 t _ (List.nodup_cons.1 hnd).2 ht

/-- The same two facts for any step that is, pointwise, such an overwrite. -/
theorem foldl_step_of_forall_ne (st : (ι → α) → κ → ι → α) (g : κ → ι) (v : κ → α)
    (hst : ∀ r n, st r n = fun i' => if i' = g n then v n else r i') (i : ι) (L : List κ) (x : ι → α)
    (h : ∀ n ∈ L, g n ≠ i) : (L.foldl st x) i = x i := by
  have e : st = fun r n => fun i' => if i' = g n then v n else r i' := funext fun r => funext fun n => hst r n
  subst e
  exact foldl_overwrite_of_forall_ne g v i L x h

theorem foldl_step_of_mem (st : (ι → α) → κ → ι → α) (g : κ → ι) (hg : Function.Injective g) (v : κ → α)
    (hst : ∀ r n, st r n = fun i' => if i' = g n then v n else r i') (n0 : κ) (i : ι) (hi : g n0 = i)
    (L : List κ) (x : ι → α) (hnd : L.Nodup) (hmem : n0 ∈ L) : (L.foldl st x) i = v n0 := by
  have e : st = fun r n => fun i' => if i' = g n then v n else r i' := funext fun r => funext fun n => hst r n
  subst e
  subst hi
  exact foldl_overwrite_of_mem g hg v n0 L x hnd hmem

end Fold

section Enq

open Cert.ReferenceIdeal

/-- The program's scatter: the operand's row axis inserted and scattered, the window the column axis, one index per
    row of the index table. -/
abbrev D : ScatterDims S65536x128 S4096x1 S4096x128 := scatter_S65536x128_S4096x1_S4096x128_1_0_0_1

variable (idx : IVec S4096x1 32) (j : S4096x128.Idx)

/-- With the word of k at row k of the index table, key row r starts at queue row r … -/
theorem start0 (hidx : ∀ k : S4096x1.Idx, idx k = BitVec.ofNat 32 (k 0).val) : D.start j idx 0 = ((j 0).val : Int) := by
  unfold ScatterDims.start
  rw [dif_pos (show (0 : Fin 2) ∈ D.scatterDimsToOperandDims by decide)]
  rw [hidx]
  have h : ((D.siIdx j ⟨D.scatterDimsToOperandDims.idxOf 0, List.idxOf_lt_length_iff.2 (show (0 : Fin 2) ∈ D.scatterDimsToOperandDims by decide)⟩) 0).val = (j 0).val := rfl
  rw [h]
  have hl := ValueIdx.idx2_lt0 j
  rw [BitVec.toInt_eq_toNat_of_lt (by rw [BitVec.toNat_ofNat]; omega), BitVec.toNat_ofNat]
  omega

/-- … and at column 0: the column axis is not scattered. -/
theorem start1 : D.start j idx 1 = 0 := by
  unfold ScatterDims.start
  rw [dif_neg (show ¬ (1 : Fin 2) ∈ D.scatterDimsToOperandDims by decide)]

/-- The window has one row … -/
theorem window0 : D.window j 0 = 0 := by
  unfold ScatterDims.window
  rw [dif_neg (show ¬ (0 : Fin 2) ∈ D.sKept by decide)]

/-- … and the update's column. -/
theorem window1 : D.window j 1 = (j 1).val := by
  unfold ScatterDims.window
  rw [dif_pos (show (1 : Fin 2) ∈ D.sKept by decide)]
  rfl

/-- Where key element (r, c) lands: queue element (r, c). -/
def emb (j : S4096x128.Idx) : S65536x128.Idx :=
  ValueIdx.ix2 (⟨(j 0).val, by have := ValueIdx.idx2_lt0 j; omega⟩ : Fin 65536) (⟨(j 1).val, ValueIdx.idx2_lt1 j⟩ : Fin 128)

theorem emb_injective : Function.Injective emb := by
  intro a b h
  have h0 := congrArg (fun i : S65536x128.Idx => (i 0).val) h
  have h1 := congrArg (fun i : S65536x128.Idx => (i 1).val) h
  funext d
  match d with
  | ⟨0, _⟩ => exact Fin.ext h0
  | ⟨1, _⟩ => exact Fin.ext h1

/-- Every update lands inside the queue, element (r, c) on element (r, c). -/
theorem resultIdx_eq (hidx : ∀ k : S4096x1.Idx, idx k = BitVec.ofNat 32 (k 0).val) : D.resultIdx? j idx = some (emb j) := by
  have hl0 := ValueIdx.idx2_lt0 j
  have hl1 := ValueIdx.idx2_lt1 j
  have H : ∀ a, 0 ≤ D.start j idx a + D.window j a ∧ D.start j idx a + D.window j a < S65536x128.size a := by
    intro a
    match a with
    | ⟨0, _⟩ =>
      show 0 ≤ D.start j idx 0 + D.window j 0 ∧ D.start j idx 0 + D.window j 0 < ((65536 : Nat) : Int)
      rw [start0 idx j hidx, window0]; omega
    | ⟨1, _⟩ =>
      show 0 ≤ D.start j idx 1 + D.window j 1 ∧ D.start j idx 1 + D.window j 1 < ((128 : Nat) : Int)
      rw [start1, window1]; omega
  unfold ScatterDims.resultIdx?
  rw [dif_pos H]
  congr 1
  funext a
  match a with
  | ⟨0, _⟩ =>
    apply Fin.ext
    show (D.start j idx 0 + D.window j 0).toNat = (j 0).val
    rw [start0 idx j hidx, window0]; omega
  | ⟨1, _⟩ =>
    apply Fin.ext
    show (D.start j idx 1 + D.window j 1).toNat = (j 1).val
    rw [start1, window1]; omega

/-- The scatter of the key rows at the identity index table is the enqueue at pointer zero. -/
theorem scatter_enq {α : Type} (keys : S4096x128.Idx → α) (queue : S65536x128.Idx → α)
    (hidx : ∀ k : S4096x1.Idx, idx k = BitVec.ofNat 32 (k 0).val) :
    Host.scatter D (fun _ b => b) queue idx keys = Cert.Spec.enq keys queue := by
  funext i
  unfold Host.scatter
  by_cases h : (i 0).val < 4096
  · rw [Cert.Spec.enq_of_lt keys queue i h]
    refine (foldl_step_of_mem _ (fun n : Fin S4096x128.numel => emb (S4096x128.rowMajor.symm n))
      (emb_injective.comp S4096x128.rowMajor.symm.injective) (fun n => keys (S4096x128.rowMajor.symm n)) ?_
      (S4096x128.rowMajor (ValueIdx.ix2 (⟨(i 0).val, h⟩ : Fin 4096) (⟨(i 1).val, (i 1).isLt⟩ : Fin 128))) i ?_
      _ queue (List.nodup_finRange _) (List.mem_finRange _)).trans ?_
    · intro r n
      rw [resultIdx_eq idx _ hidx]
    · show emb (S4096x128.rowMajor.symm (S4096x128.rowMajor _)) = i
      rw [Equiv.symm_apply_apply]
      funext d
      match d with
      | ⟨0, _⟩ => rfl
      | ⟨1, _⟩ => rfl
    · show keys (S4096x128.rowMajor.symm (S4096x128.rowMajor _)) = _
      rw [Equiv.symm_apply_apply]
  · rw [Cert.Spec.enq_of_ge keys queue i h]
    refine foldl_step_of_forall_ne _ (fun n : Fin S4096x128.numel => emb (S4096x128.rowMajor.symm n))
      (fun n => keys (S4096x128.rowMajor.symm n)) ?_ i _ queue ?_
    · intro r n
      rw [resultIdx_eq idx _ hidx]
    · intro n _ e
      exact h (by rw [← e]; exact ValueIdx.idx2_lt0 (S4096x128.rowMajor.symm n))

end Enq

end Cert.Ref
-- ==== Proof.RefTerm.lean ====
/-
  What the reference computes, as one pure term of its three arguments: the index table (for key row k the word
  (ptr + k) rem 65536, through the remainder function's sign corrections and the later wrap of a negative index),
  then the queue with the key rows scattered into it at those indices. One `let` per operation of the program.
-/
import proofs.«202126_g10411000725760_week1_w2_54_16_alg».proof.Proof.Gen.ReferenceIdeal

noncomputable section

namespace Cert.Ref

open Cert.ReferenceIdeal Cert.ReferenceIdeal.Facts₀ Idealize.ShloMosaic

/-- The scatter's index table: one row per key row, one column. -/
def idxTerm (ptr : IVec S1 32) : IVec S4096x1 32 :=
  let v0 : IVec S_ 32 := shapeCast S_ ptr shapeCasts_S1_S_
  let v1 : IVec S4096 32 := iotaInDim S4096 32 0
  let v2 : IVec S4096 32 := broadcastInDim S4096 ![] bcast_S_S4096 v0
  let v3 : IVec S4096 32 := addi v2 v1
  let c : IVec S_ 32 := constantI S_ 32 65536#32
  -- the remainder function on (v3, c)
  let r0 : IVec S_ 32 := id c
  let rc : IVec S_ 32 := constantI S_ 32 0#32
  let r1 : IVec S_ 1 := cmpi .eq r0 rc
  let rc0 : IVec S_ 32 := constantI S_ 32 1#32
  let r2 : IVec S_ 32 := select r1 rc0 r0
  let r3 : IVec S4096 32 := broadcastInDim S4096 ![] bcast_S_S4096 r2
  let r4 : IVec S4096 32 := Host.remsi v3 r3
  let rc1 : IVec S_ 32 := constantI S_ 32 0#32
  let r5 : IVec S4096 32 := broadcastInDim S4096 ![] bcast_S_S4096 rc1
  let r6 : IVec S4096 1 := cmpi .ne r4 r5
  let rc2 : IVec S_ 32 := constantI S_ 32 0#32
  let r7 : IVec S4096 32 := broadcastInDim S4096 ![] bcast_S_S4096 rc2
  let r8 : IVec S4096 1 := cmpi .slt r4 r7
  let rc3 : IVec S_ 32 := constantI S_ 32 0#32
  let r9 : IVec S_ 1 := cmpi .slt r2 rc3
  let r10 : IVec S4096 1 := broadcastInDim S4096 ![] bcast_S_S4096 r9
  let r11 : IVec S4096 1 := cmpi .ne r8 r10
  let r12 : IVec S4096 1 := andi r11 r6
  let r13 : IVec S4096 32 := broadcastInDim S4096 ![] bcast_S_S4096 r2
  let r14 : IVec S4096 32 := addi r4 r13
  let v4 : IVec S4096 32 := select r12 r14 r4
  -- back in @main: a negative index wraps once
  let c0 : IVec S_ 32 := constantI S_ 32 0#32
  let v5 : IVec S4096 32 := broadcastInDim S4096 ![] bcast_S_S4096 c0
  let v6 : IVec S4096 1 := cmpi .slt v4 v5
  let c1 : IVec S_ 32 := constantI S_ 32 65536#32
  let v7 : IVec S4096 32 := broadcastInDim S4096 ![] bcast_S_S4096 c1
  let v8 : IVec S4096 32 := addi v4 v7
  let v9 : IVec S4096 32 := select v6 v8 v4
  broadcastInDim S4096x1 ![0] bcast_S4096_S4096x1_0 v9

/-- The reference's result: the queue with the key rows written at the index table's rows, in row-major order. -/
def refTerm {α : Type} (keys : S4096x128.Idx → α) (queue : S65536x128.Idx → α) (ptr : IVec S1 32) : S65536x128.Idx → α :=
  Host.scatter scatter_S65536x128_S4096x1_S4096x128_1_0_0_1 (fun _ b => b) queue (idxTerm ptr) keys

end Cert.Ref

end
-- ==== Proof.RefIndex.lean ====
/-
  The index table at pointer zero. For key row k < 4096 the word is 0 + k, whose signed remainder by 65536 is
  itself (it is non-negative and below the divisor), which is neither negative nor of a sign other than the
  divisor's, so neither of the two corrections adds 65536: the table holds the word of k at row k.
-/
import proofs.«202126_g10411000725760_week1_w2_54_16_alg».proof.Proof.RefTerm

namespace Cert.Ref

open Cert.ReferenceIdeal Idealize.ShloMosaic

/-- The chain one word of the index table goes through after the pointer is added: the remainder function's
    divisor guard, remainder, sign corrections, then the wrap of a negative result. -/
def wrapWord (x : BitVec 32) : BitVec 32 :=
  let m : BitVec 32 := Scalar.select (IntOp.cmpi .eq (65536#32) (0#32)) (1#32) (65536#32)
  let r4 : BitVec 32 := IntOp.remsi .host x m
  let r6 : BitVec 1 := IntOp.cmpi .ne r4 (0#32)
  let r8 : BitVec 1 := IntOp.cmpi .slt r4 (0#32)
  let r9 : BitVec 1 := IntOp.cmpi .slt m (0#32)
  let r11 : BitVec 1 := IntOp.cmpi .ne r8 r9
  let r12 : BitVec 1 := IntOp.andi r11 r6
  let r14 : BitVec 32 := IntOp.addi r4 m
  let v4 : BitVec 32 := Scalar.select r12 r14 r4
  let v6 : BitVec 1 := IntOp.cmpi .slt v4 (0#32)
  let v8 : BitVec 32 := IntOp.addi v4 (65536#32)
  Scalar.select v6 v8 v4

/-- The index table at pointer zero, read at a row: the chain at the word 0 + k. -/
theorem idxTerm_zero_apply (k : S4096x1.Idx) :
    idxTerm (fun _ => 0#32) k = wrapWord (IntOp.addi (0#32) (BitVec.ofNat 32 (k 0).val)) := rfl

/-- The signed remainder by 65536 of a word in [0, 65536) is the word. -/
theorem srem_small (x : BitVec 32) (h : x.toNat < 65536) : x.srem (65536#32) = x := by
  have hx : x.msb = false := (BitVec.msb_eq_false_iff_two_mul_lt).2 (by omega)
  have hy : (65536#32 : BitVec 32).msb = false := by decide
  have hs : x.srem (65536#32) = x.umod (65536#32) := by
    show (match x.msb, (65536#32 : BitVec 32).msb with
      | false, false => x.umod (65536#32)
      | false, true => x.umod (-(65536#32))
      | true, false => -((-x).umod (65536#32))
      | true, true => -((-x).umod (-(65536#32)))) = x.umod (65536#32)
    rw [hx, hy]
  rw [hs]
  apply BitVec.eq_of_toNat_eq
  rw [BitVec.umod_eq, BitVec.toNat_umod]
  exact Nat.mod_eq_of_lt h

/-- A word in [0, 65536) is not negative. -/
theorem slt_zero_small (x : BitVec 32) (h : x.toNat < 65536) : x.slt (0#32) = false := by
  rw [BitVec.slt, BitVec.toInt_eq_toNat_of_lt (by omega)]
  simp

/-- The chain leaves a word in [0, 65536) as it is. -/
theorem wrapWord_small (x : BitVec 32) (h : x.toNat < 65536) : wrapWord x = x := by
  have hm : Scalar.select (IntOp.cmpi .eq (65536#32 : BitVec 32) (0#32)) (1#32 : BitVec 32) (65536#32) = 65536#32 := by decide
  have hc : ¬ IntOp.SDivCorner x (65536#32) := by
    rintro (h0 | ⟨_, h1⟩)
    · exact absurd h0 (by decide)
    · exact absurd h1 (by decide)
  have hr4 : IntOp.remsi .host x (65536#32) = x := by
    show (if IntOp.SDivCorner x (65536#32) then IntOp.cornerWord .host .remsi x (65536#32) else x.srem (65536#32)) = x
    rw [if_neg hc, srem_small x h]
  have h8 : IntOp.cmpi .slt x (0#32) = 0#1 := by
    show BitVec.ofBool (x.slt (0#32)) = 0#1
    rw [slt_zero_small x h]; rfl
  have h9 : IntOp.cmpi .slt (65536#32 : BitVec 32) (0#32) = 0#1 := by decide
  have h11 : IntOp.cmpi .ne (0#1 : BitVec 1) (0#1) = 0#1 := by decide
  have h12 : ∀ b : BitVec 1, IntOp.andi (0#1 : BitVec 1) b = 0#1 := by decide
  have hsel : ∀ a b : BitVec 32, Scalar.select (0#1 : BitVec 1) a b = b := by
    intro a b
    show (if (0#1 : BitVec 1) = 1 then a else b) = b
    rw [if_neg (by decide)]
  unfold wrapWord
  simp only [hm, hr4, h8, h9, h11, h12, hsel]

/-- At pointer zero the index table holds at row k the word of k. -/
theorem idxTerm_zero (k : S4096x1.Idx) : idxTerm (fun _ => 0#32) k = BitVec.ofNat 32 (k 0).val := by
  have hk : (k 0).val < 4096 := (k 0).isLt
  rw [idxTerm_zero_apply]
  have h0 : IntOp.addi (0#32) (BitVec.ofNat 32 (k 0).val) = BitVec.ofNat 32 (k 0).val := by
    exact BitVec.zero_add _
  rw [h0]
  exact wrapWord_small _ (by rw [BitVec.toNat_ofNat]; omega)

end Cert.Ref
-- ==== Proof.RefValue.lean ====
/-
  The reference's value at pointer zero: the index table is the identity on the key rows, so the scatter is the
  enqueue at pointer zero.
-/
import proofs.«202126_g10411000725760_week1_w2_54_16_alg».proof.Proof.RefScatter
import proofs.«202126_g10411000725760_week1_w2_54_16_alg».proof.Proof.RefIndex

namespace Cert.Ref

open Cert.ReferenceIdeal Idealize.ShloMosaic

/-- With the pointer zero the reference's result is the queue with rows 0 … 4095 the key rows. -/
theorem refTerm_zero {α : Type} (keys : S4096x128.Idx → α) (queue : S65536x128.Idx → α) :
    refTerm keys queue (fun _ => 0#32) = Cert.Spec.enq keys queue :=
  scatter_enq (idxTerm (fun _ => 0#32)) keys queue idxTerm_zero

end Cert.Ref
-- ==== Proof.RefRun.lean ====
/-
  The reference's run: from any memory with zero counters every weakly fair execution of @main terminates with the
  result buffer at the one pure term of the three arguments' launch contents and the arguments unchanged; with the
  pointer argument zero that term is the enqueue at pointer zero.
-/
import proofs.«202126_g10411000725760_week1_w2_54_16_alg».proof.Proof.RefOps
import proofs.«202126_g10411000725760_week1_w2_54_16_alg».proof.Proof.RefValue

noncomputable section

namespace Cert.Ref

open Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.scatter in
/-- The fold at the result buffer is the pure term of the three arguments: each operation's result at its own
    buffer is its function of its operands' contents, at any other buffer what was there. -/
theorem result_eq (V : Valuation τ sig (Elt F)) :
    after ops V (main_v11 : DevRef τ sig)
      = refTerm (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

/-- On every device, for any float values, from any memory with zero counters: every weakly fair execution of @main
    terminates with the result at the pure term of the arguments and the arguments unchanged. -/
theorem run_term (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v11)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (result_eq _),
      (h c main_arg0).trans (arg0_eq _), (h c main_arg1).trans (arg1_eq _), (h c main_arg2).trans (arg2_eq _)⟩)
    (run_main m g)

/-- The same at the ideal instance with the pointer argument zero: the result is the enqueue at pointer zero. -/
theorem run
    (m : (ℓ : Loc Cert.ReferenceIdeal.nD Cert.ReferenceIdeal.τ Cert.ReferenceIdeal.sig) → Buf (Elt Ideal) ℓ)
    (g : Dev Cert.ReferenceIdeal.nD → PrngReg)
    (hp : ∀ c : Dev Cert.ReferenceIdeal.nD, m ((c.tc : Thread Cert.ReferenceIdeal.nD Cert.ReferenceIdeal.τ).loc Cert.ReferenceIdeal.main_arg2) = fun _ => (0#32 : BitVec 32)) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v11)
            = Cert.Spec.enq (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨((h c).1).trans (by rw [hp c]; exact refTerm_zero _ _), (h c).2⟩)
    (run_term (F := Ideal) m g)

end Cert.Ref

end
-- ==== Proof.IdealSetup.lean ====
/-
  The enqueue kernel as the SparseCore launch theorem sees it, and what its one call hands out and takes back.
  Sixteen vector subcores each move 256 consecutive key rows: subcore `j` reads the pointer word, copies key rows
  `256 j … 256 j + 255` into its own staging buffer and, the pointer being zero, writes them to the same rows of the
  output (which @main first fills with the queue). So the call takes the keys, the pointer and the output whole; task `j`
  takes key rows `256 j …`, a read share of the pointer (every task reads it) and output rows `256 j …` at the
  queue's contents, and hands back the output rows at the specification's contents (`Cert.Spec.enq`); output rows from
  4096 on stay with the call, untouched.
-/
import proofs.«202126_g10411000725760_week1_w2_54_16_alg».proof.KernelIdeal
import proofs.«202126_g10411000725760_week1_w2_54_16_alg».proof.Proof.Gen.KernelIdeal
import proofs.«202126_g10411000725760_week1_w2_54_16_alg».proof.Proof.Gen.KernelIdeal.Skeleton
import proofs.«202126_g10411000725760_week1_w2_54_16_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the rows -/

variable (m : (ℓ : Loc nD τ sig) → Buf (Elt F) ℓ) (ρ : Dev nD → PrngReg)

/-- The keys, the queue and the pointer (the arguments) and the output (the result), as locations of device `d`. -/
abbrev kLoc (d : Dev nD) : Loc nD τ sig := (SparseCore.T d).loc main_arg0
abbrev qLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

/-- The output as the call finds it (the queue's contents) and as it leaves it (the enqueue at pointer zero). -/
abbrev q0 (d : Dev nD) : Buf (Elt F) (oLoc d) := m (qLoc d)
abbrev G (d : Dev nD) : Buf (Elt F) (oLoc d) := Cert.Spec.enq (m (kLoc d)) (m (qLoc d))

abbrev kV : Memref sig .scVector .hbm S4096x128 .f32 := Memref.whole main_arg0_scv
abbrev pV : Memref sig .scVector .hbm S1 .i32 := Memref.whole main_arg2_scv
abbrev oV : Memref sig .scVector .hbm S65536x128 .f32 := Memref.whole main_v0_scv
/-- A task's scratch: the pointer's landing buffer, the two index lists of the wrapped case, the staging buffer. -/
abbrev sP : Memref sig .scVector .vmem S16 .i32 := Memref.whole cc0_scratch0
abbrev sA : Memref sig .scVector .vmem S128 .i32 := Memref.whole cc0_scratch1
abbrev sB : Memref sig .scVector .vmem S128 .i32 := Memref.whole cc0_scratch2
abbrev sR : Memref sig .scVector .vmem S256x128 .f32 := Memref.whole cc0_scratch3

/-- The keys in sixteen blocks of 256 rows; the output in 256 such blocks, of which the tasks write the first sixteen. -/
theorem kdiv : 16 ∣ S4096x128.size 0 := ⟨256, rfl⟩
theorem odiv : 256 ∣ S65536x128.size 0 := ⟨256, rfl⟩
abbrev krow (j : Fin 16) : Rect S4096x128 := Rect.part (s := S4096x128) (a₀ := 0) kdiv j
abbrev orow (j : Fin 256) : Rect S65536x128 := Rect.part (s := S65536x128) (a₀ := 0) odiv j
abbrev kRowSet (j : Fin 16) : Finset S4096x128.Idx := ((kV : Memref sig .scVector .hbm S4096x128 .f32).view.slice (krow j)).set
abbrev oBlkSet (j : Fin 256) : Finset S65536x128.Idx := ((oV : Memref sig .scVector .hbm S65536x128 .f32).view.slice (orow j)).set
abbrev up (j : Fin 16) : Fin 256 := Fin.castLE (by decide) j
abbrev oRowSet (j : Fin 16) : Finset S65536x128.Idx := oBlkSet (up j)

/-- A read share of the pointer for each task (the call keeps the remainder). -/
abbrev pq (j : Fin 16) : PosShare TreeShare := Transfers.shareTok fullShare 16 j

variable [FloatOps F]

abbrev kPts (d : Dev nD) : sProp 𝕄 := kLoc d ↦{fullShare} m (kLoc d)
abbrev pPts (d : Dev nD) : sProp 𝕄 := pLoc d ↦{fullShare} m (pLoc d)
abbrev oPts (d : Dev nD) (f : Buf (Elt F) (oLoc d)) : sProp 𝕄 := oLoc d ↦{fullShare} f
abbrev kRowPts (d : Dev nD) (j : Fin 16) : sProp 𝕄 := kLoc d ↦[kRowSet j]{fullShare} m (kLoc d)
abbrev pShPts (d : Dev nD) (j : Fin 16) : sProp 𝕄 := pLoc d ↦{pq j} m (pLoc d)
abbrev oRowPts (d : Dev nD) (j : Fin 16) (f : Buf (Elt F) (oLoc d)) : sProp 𝕄 := oLoc d ↦[oRowSet j]{fullShare} f

/-- The one call takes the keys, the pointer and the output (at the queue's contents) whole and brings them back, the
    output at the enqueue's result; task `j` takes key rows `j`, its share of the pointer and output rows `j`. -/
def P : (K (F := F)).Pay (nD := nD) (Val := Elt F) (Name := ℕ) (U := UU) where
  st := fun q d _ => match q with | 0 => iprop(kPts m d ∗ pPts m d ∗ oPts d (q0 m d))
  dn := fun q d _ => match q with | 0 => iprop(kPts m d ∗ pPts m d ∗ oPts d (G m d))
  go := fun q d _ i => match q with
    | 0 => iprop(kRowPts m d (Fin.cast nSub_zero i) ∗ pShPts m d (Fin.cast nSub_zero i) ∗ oRowPts d (Fin.cast nSub_zero i) (q0 m d))
  td := fun q d _ i => match q with
    | 0 => iprop(kRowPts m d (Fin.cast nSub_zero i) ∗ pShPts m d (Fin.cast nSub_zero i) ∗ oRowPts d (Fin.cast nSub_zero i) (G m d))
  x := fun _ _ => iprop(emp)

instance P_storable : (P (F := F) m).IsStorable where
  st q d _ := match q with
    | 0 => (inferInstance : BI.Storable (upEmb : UEmb _ 𝕄) iprop(kPts m d ∗ pPts m d ∗ oPts d (q0 m d)))
  dn q d _ := match q with
    | 0 => (inferInstance : BI.Storable (upEmb : UEmb _ 𝕄) iprop(kPts m d ∗ pPts m d ∗ oPts d (G m d)))
  go q d _ i := match q with
    | 0 => (inferInstance : BI.Storable (upEmb : UEmb _ 𝕄)
        iprop(kRowPts m d (Fin.cast nSub_zero i) ∗ pShPts m d (Fin.cast nSub_zero i) ∗ oRowPts d (Fin.cast nSub_zero i) (q0 m d)))
  td q d _ i := match q with
    | 0 => (inferInstance : BI.Storable (upEmb : UEmb _ 𝕄)
        iprop(kRowPts m d (Fin.cast nSub_zero i) ∗ pShPts m d (Fin.cast nSub_zero i) ∗ oRowPts d (Fin.cast nSub_zero i) (G m d)))

/-! ## One task's obligation, as an interface between the body and the launch -/

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- What the body's proof establishes and the launch consumes: on the vector subcore at grid point `L`, from key rows
    `L 1`, a read share of the pointer and output rows `L 1` at the queue's contents, the kernel's function runs to its
    end and leaves the output rows at the enqueue's result, everything else as it found it. -/
def TileSpec : Prop :=
  ∀ (d : Dev nD) (L : grid0.Coords) (O : CellTallies nD τ sig (HIx 1)) (W : Waits sig (HIx 1)), (∀ g, O g none = 0) →
    iprop(levAts (K (F := F)).L (K (F := F)).lev ∗ emp
        ∗ (kRowPts m d (jL L) ∗ pShPts m d (jL L) ∗ oRowPts d (jL L) (q0 m d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L kV (Memref.isWhole_whole _) pV (Memref.isWhole_whole _) oV (Memref.isWhole_whole _) oV (Memref.isWhole_whole _)
            sP (Memref.isWhole_whole _) sA (Memref.isWhole_whole _) sB (Memref.isWhole_whole _) sR (Memref.isWhole_whole _)
            cc0_scratch4 cc0_scoped0 cc0_scoped1 cc0_scoped2)
          fun _ => iprop((kRowPts m d (jL L) ∗ pShPts m d (jL L) ∗ oRowPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.IdealLaunch.lean ====
/-
  The launch of the enqueue kernel: from one task's obligation (taken here as a hypothesis) to the run of the whole
  program. The call's operands are dealt to the sixteen tasks — the keys in sixteen blocks of 256 rows, a read share of
  the pointer each, the first sixteen blocks of 256 output rows — and gathered back; the output rows from 4096 on never
  leave the call, and there the queue's contents and the enqueue's result are the same. @main first copies the queue
  into the output buffer, then makes the one call; at the end the output holds the enqueue's result and the three
  arguments are as they were.
-/
import proofs.«202126_g10411000725760_week1_w2_54_16_alg».proof.Proof.IdealSetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## One task's obligation, in the launch theorem's spelling -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          kV (Memref.isWhole_whole _) pV (Memref.isWhole_whole _) oV (Memref.isWhole_whole _) oV (Memref.isWhole_whole _)
          sP (Memref.isWhole_whole _) sA (Memref.isWhole_whole _) sB (Memref.isWhole_whole _) sR (Memref.isWhole_whole _)
          cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body's obligation is the launch theorem's obligation for a task: the kernel's function, entered through the
    body table on the vector subcore the task runs on. -/
theorem tileObl (hb : TileSpec m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## The call's operands among the tasks, and back -/

omit [FloatOps F] in
theorem kRowSet_eq (j : Fin 16) : kRowSet j = (krow j).set := by
  show ((View.whole (main_arg0_scv : Ref sig .scVector)).slice (krow j)).set = _
  rw [View.set_slice]; exact Finset.map_refl
omit [FloatOps F] in
theorem kRows_disjoint : ∀ i ∈ (Finset.univ : Finset (Fin 16)), ∀ j ∈ (Finset.univ : Finset (Fin 16)), i ≠ j → Disjoint (kRowSet i) (kRowSet j) :=
  fun i _ j _ h => by rw [kRowSet_eq, kRowSet_eq]; exact Rect.part_disjoint kdiv h
omit [FloatOps F] in
theorem kRows_cover : (Finset.univ : Finset (Fin 16)).biUnion kRowSet = Finset.univ :=
  (Finset.biUnion_congr rfl fun i _ => kRowSet_eq i).trans (Rect.biUnion_part kdiv)

omit [FloatOps F] in
/-- The keys whole are their sixteen blocks of rows. -/
theorem kPts_rows (d : Dev nD) (f : Buf (Elt F) (kLoc d)) :
    (kLoc d ↦{fullShare} f : sProp 𝕄) = bigSep Finset.univ fun j : Fin 16 => kLoc d ↦[kRowSet j]{fullShare} f := by
  rw [← pointsTo_biUnion Finset.univ (ℓ := kLoc d) kRowSet kRows_disjoint, kRows_cover]; try rfl

omit [FloatOps F] in
theorem oRowSet_eq (j : Fin 16) : oRowSet j = (orow (up j)).set := by
  show ((View.whole (main_v0_scv : Ref sig .scVector)).slice (orow (up j))).set = _
  rw [View.set_slice]; exact Finset.map_refl
omit [FloatOps F] in
theorem oRows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv fun e => h (Fin.castLE_injective _ e)

/-- The output rows the tasks write: the first sixteen blocks of 256 rows. -/
abbrev oTask : Finset S65536x128.Idx := (Finset.univ : Finset (Fin 16)).biUnion oRowSet

omit [FloatOps F] in
/-- A row below 4096 lies in one of the first sixteen blocks: the one its number divided by 256 names. -/
theorem mem_oTask (i : S65536x128.Idx) (h : (i 0).val < 4096) : i ∈ oTask := by
  have h1 : (i 1).val < 128 := (i 1).isLt
  refine Finset.mem_biUnion.2 ⟨⟨(i 0).val / 256, by omega⟩, Finset.mem_univ _, ?_⟩
  rw [oRowSet_eq]
  refine Rect.mem_set_unit.2 (Fin.forall_fin_two.2 ⟨?_, ?_⟩)
  · show (i 0).val / 256 * 256 ≤ (i 0).val ∧ (i 0).val < (i 0).val / 256 * 256 + 256
    omega
  · show 0 * 128 ≤ (i 1).val ∧ (i 1).val < 0 * 128 + 128
    omega

omit [FloatOps F] in
/-- Off the tasks' rows — from row 4096 on — the enqueue's result is the queue's contents. -/
theorem rest_eq (d : Dev nD) : ∀ i ∈ (Finset.univ \ oTask : Finset S65536x128.Idx), q0 m d i = G m d i := by
  intro i hi
  have hn : ¬ (i 0).val < 4096 := fun hlt => (Finset.mem_sdiff.1 hi).2 (mem_oTask i hlt)
  exact (Cert.Spec.enq_of_ge _ _ i hn).symm

omit [FloatOps F] in
theorem oRest_eq (d : Dev nD) :
    (oLoc d ↦[Finset.univ \ oTask]{fullShare} q0 m d : sProp 𝕄) = oLoc d ↦[Finset.univ \ oTask]{fullShare} G m d :=
  pointsTo_congr (ℓ := oLoc d) (f := q0 m d) (g := G m d) (rest_eq m d)

omit [FloatOps F] in
/-- The output whole is the tasks' sixteen blocks of rows and the rest. -/
theorem oPts_split (d : Dev nD) (f : Buf (Elt F) (oLoc d)) :
    (oLoc d ↦{fullShare} f : sProp 𝕄)
      ⊣⊢ iprop((bigSep Finset.univ fun j : Fin 16 => oLoc d ↦[oRowSet j]{fullShare} f) ∗ oLoc d ↦[Finset.univ \ oTask]{fullShare} f) := by
  rw [← pointsTo_biUnion Finset.univ (ℓ := oLoc d) oRowSet oRows_disjoint]
  exact pointsTo_split_subset (Finset.subset_univ _)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands split among the sixteen tasks and their results gather into the call's: the keys block by
    block; the pointer a read share each, the remainder kept by the call and rejoined; the output's first sixteen blocks,
    the later rows kept by the call at the queue's contents, which there are the enqueue's result. -/
theorem vecSplit : (K (F := F)).VecSplit' (P m) 0 := by
  intro d c
  show iprop(kPts m d ∗ pPts m d ∗ oPts d (q0 m d)) ⊢ |={Set.univ}=> iprop(
      (bigSep Finset.univ fun i : Fin ((K (F := F)).nSub 0) =>
        iprop(kRowPts m d (Fin.cast nSub_zero i) ∗ pShPts m d (Fin.cast nSub_zero i) ∗ oRowPts d (Fin.cast nSub_zero i) (q0 m d)))
      ∗ ((bigSep Finset.univ fun i : Fin ((K (F := F)).nSub 0) =>
          iprop(kRowPts m d (Fin.cast nSub_zero i) ∗ pShPts m d (Fin.cast nSub_zero i) ∗ oRowPts d (Fin.cast nSub_zero i) (G m d)))
          -∗ iprop(kPts m d ∗ pPts m d ∗ oPts d (G m d))))
  rw [bigSep_tasks (F := F) (fun i => iprop(kRowPts m d i ∗ pShPts m d i ∗ oRowPts d i (q0 m d))),
    bigSep_tasks (F := F) (fun i => iprop(kRowPts m d i ∗ pShPts m d i ∗ oRowPts d i (G m d))), bigSep_sep', bigSep_sep', bigSep_sep', bigSep_sep']
  unfold kPts pPts oPts kRowPts pShPts oRowPts
  rw [kPts_rows]
  iintro ⟨Hk, Hp, Ho⟩
  ihave Hp' := (Transfers.pointsTo_toks_split fullShare 16) $$ Hp
  icases Hp' with ⟨Hpd, Hpt⟩
  ihave Ho' := (oPts_split d (q0 m d)).1 $$ Ho
  icases Ho' with ⟨Hor, Hox⟩
  imodintro
  isplitl [Hk Hpt Hor]
  · isplitl [Hk]; · iexact Hk
    isplitl [Hpt]; · iexact Hpt
    iexact Hor
  iintro ⟨Hk, Hpt, Hor⟩
  isplitl [Hk]; · iexact Hk
  isplitl [Hpd Hpt]
  · iapply (Transfers.pointsTo_toks_join fullShare 16)
    isplitl [Hpd]; · iexact Hpd
    iexact Hpt
  iapply (oPts_split d (G m d)).2
  isplitl [Hor]; · iexact Hor
  rw [← oRest_eq]
  iexact Hox

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev k' : DevRef τ sig := Proc.devRef .tc (main_arg0 : Ref sig .tc)
abbrev q' : DevRef τ sig := Proc.devRef .tc (main_arg1 : Ref sig .tc)
abbrev p' : DevRef τ sig := Proc.devRef .tc (main_arg2 : Ref sig .tc)
abbrev o' : DevRef τ sig := Proc.devRef .tc (main_v0 : Ref sig .tc)
/-- @main's first line: the queue copied into the output's buffer. -/
abbrev opCopy : HloOp τ sig (Elt F) := StableHlo.unary main_arg1 main_v0 id

/-- The TensorCore's arrays, all unscoped: the keys, the queue, the pointer, the output. -/
abbrev S4 : Finset (DevRef τ sig) := {k', q', p', o'}

omit [FloatOps F] in
theorem held_S4 (d : Dev nD) (W : Valuation τ sig (Elt F)) :
    (StableHlo.held (T d) S4 W : sProp 𝕄)
      = iprop((kLoc d ↦{fullShare} W k') ∗ (qLoc d ↦{fullShare} W q') ∗ (pLoc d ↦{fullShare} W p') ∗ oLoc d ↦{fullShare} W o') := by
  unfold StableHlo.held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((kLoc d ↦{fullShare} W main_arg0) ∗ (qLoc d ↦{fullShare} W main_arg1) ∗ (pLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = StableHlo.held (T d) S4 (V0 m d) := by
  rw [unscopedBufs_eq, held_S4]; rfl

theorem hCopy : (opCopy (F := F)).bufs ⊆ S4 := show ({q', o'} : Finset (DevRef τ sig)) ⊆ S4 by decide

/-- After the copy the output's buffer holds the queue's contents; the three arguments are as they were. -/
theorem held_copied (d : Dev nD) :
    (StableHlo.held (T d) S4 ((opCopy (F := F)).result (V0 m d)) : sProp 𝕄)
      = iprop(kPts m d ∗ (qLoc d ↦{fullShare} m (qLoc d)) ∗ pPts m d ∗ oPts d (q0 m d)) := by
  rw [held_S4,
    show (opCopy (F := F)).result (V0 m d) k' = V0 m d k' from StableHlo.unary_result_ne main_arg1 main_v0 id _ _ (V0 m d) (r := main_arg0) (by decide),
    show (opCopy (F := F)).result (V0 m d) q' = V0 m d q' from StableHlo.unary_result_ne main_arg1 main_v0 id _ _ (V0 m d) (r := main_arg1) (by decide),
    show (opCopy (F := F)).result (V0 m d) p' = V0 m d p' from StableHlo.unary_result_ne main_arg1 main_v0 id _ _ (V0 m d) (r := main_arg2) (by decide),
    show (opCopy (F := F)).result (V0 m d) o' = V0 m d q' from StableHlo.unary_result main_arg1 main_v0 id _ _ (V0 m d)]
  rfl

/-- What the call takes for the one SparseCore of its grid, and what it hands back. -/
theorem st0_eq (d : Dev nD) :
    (bigSep Finset.univ fun c : Fin ((K (F := F)).nCore 0) => (P m).st 0 d c) = iprop(kPts m d ∗ pPts m d ∗ oPts d (q0 m d)) :=
  bigSep_univ_of_subsingleton (0 : Fin 1)
theorem dn0_eq (d : Dev nD) :
    (bigSep Finset.univ fun c : Fin ((K (F := F)).nCore 0) => (P m).dn 0 d c) = iprop(kPts m d ∗ pPts m d ∗ oPts d (G m d)) :=
  bigSep_univ_of_subsingleton (0 : Fin 1)

/-- What @main leaves the claim: the three arguments at their launch contents, the output at the enqueue's result. -/
abbrev FIN (d : Dev nD) : sProp 𝕄 := iprop(kPts m d ∗ (qLoc d ↦{fullShare} m (qLoc d)) ∗ pPts m d ∗ oPts d (G m d))

/-- @main on device `d`'s TensorCore: the copy of the queue into the output's buffer, then the one call, from the keys,
    the pointer and the output and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the copy, over the four arrays
  iapply (StableHlo.wp_hlo_within 𝒱 (SparseCore.T d) none Set.univ (op := opCopy) (S := S4) hCopy (V := V0 m d)) $$ [Hb Hheld]
  · isplitl [Hb]; · iexact Hb
    iexact Hheld
  iintro ⟨Hb, Hheld⟩
  ihave Hh := (Entails.of_eq (held_copied (F := F) m d)) $$ Hheld
  icases Hh with ⟨Hk, Hq, Hp, Ho⟩
  rw [wp_ret]; imodintro
  -- the call: the keys, the pointer and the output to the SparseCore's sequencer and back
  iapply ((K (F := F)).wp_run (D (F := F)) 𝒱 (EH := EH) (P := P m) κ d 0) $$ [Hst Hk Hp Ho Hq]
  isplitr; · iexact Hctx
  isplitl [Hst]; · iexact Hst
  isplitl [Hk Hp Ho]
  · rw [st0_eq]
    isplitl [Hk]; · iexact Hk
    isplitl [Hp]; · iexact Hp
    iexact Ho
  iintro ⟨Hst, Hdn⟩
  ihave Hdn' := (Entails.of_eq (dn0_eq m d)) $$ Hdn
  icases Hdn' with ⟨Hk, Hp, Ho⟩
  imodintro
  isplitl [Hst]; · iexact Hst
  isplitl [Hk]; · iexact Hk
  isplitl [Hq]; · iexact Hq
  isplitl [Hp]; · iexact Hp
  iexact Ho

/-- What the final memory says: the output is the enqueue's result, the arguments are unchanged. -/
def fq (d : Dev nD) (s' : Phys nD τ sig (Elt F)) : Prop :=
  s'.mem.mem (oLoc d) = G m d ∧ s'.mem.mem (kLoc d) = m (kLoc d) ∧ s'.mem.mem (qLoc d) = m (qLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hk, Hq, Hp, Ho⟩, HSI⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%hq, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := oLoc d) (I := Finset.univ) (q := fullShare) (f := G m d)) $$ [HSI Ho]
  · isplitl [HSI] <;> iassumption
  icases H with %ho
  ipureintro
  exact ⟨funext fun i => ho i (Finset.mem_univ i), funext fun i => hk i (Finset.mem_univ i), funext fun i => hq i (Finset.mem_univ i),
    funext fun i => hp i (Finset.mem_univ i)⟩

/-! ## The program's run -/

def QC : PUnit × MemSt nD τ sig (Elt F) → Prop := fun r =>
  ∀ c : Dev nD, r.2.mem (oLoc c) = G m c ∧ r.2.mem (kLoc c) = m (kLoc c) ∧ r.2.mem (qLoc c) = m (qLoc c) ∧ r.2.mem (pLoc c) = m (pLoc c)

/-- Every weakly fair execution of the program's threads ends, nothing faulting, with the output at the enqueue's result
    and the arguments unchanged — given one task's obligation. -/
theorem run_main [∀ e, Nonempty (Elt F e)] (hb : TileSpec m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.IdealBody.lean ====
/-
  One task of the enqueue kernel, at a symbolic vector subcore `(L 0, L 1)`, under the precondition's fact that the ring
  pointer is zero. The task fetches the pointer's one word into element 0 of a sixteen-word buffer and loads it: the
  word is zero. Then the side conditions the body assumes of that word hold (its destination rows `256 (L 1) …` start at
  a multiple of eight and end before row 65536), the contiguous branch is taken and the wrapped one is not — all decided
  over the sixteen grid points at the word zero. The task copies key rows `256 (L 1) … 256 (L 1) + 255` into its staging
  buffer and the staging buffer onto output rows `256 (L 1) …`; each copy is waited for before its buffers are touched
  again. What the output rows then hold is, element by element, the key at the same row and column: the
  specification's value, since those rows are below 4096.
-/
import proofs.«202126_g10411000725760_week1_w2_54_16_alg».proof.Proof.IdealSetup
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- The task's three DMA semaphores: the pointer fetch's, the key rows fetch's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

/-- The key rows the task fetches, as the program slices them: rows `256 (L 1) …`, block `L 1` of the sixteen. -/
abbrev kRect (L : grid0.Coords) : Rect S4096x128 := Rect.unit (s := S4096x128) (k0_off1 L) S256x128.size (k0_off1_inb L)
abbrev kRowK (L : grid0.Coords) : Memref sig .scVector .hbm S256x128 .f32 := (kV : Memref sig .scVector .hbm S4096x128 .f32).slice (kRect L) (fun _ => rfl)

omit [FloatOps F] in
theorem kRect_eq : kRect L = krow (jL L) := by
  unfold kRect krow Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

omit [FloatOps F] in
theorem set_kRowK : (kRowK L).view.set = kRowSet (jL L) := by
  show ((kV : Memref sig .scVector .hbm S4096x128 .f32).view.slice (kRect L)).set
    = ((kV : Memref sig .scVector .hbm S4096x128 .f32).view.slice (krow (jL L))).set
  rw [kRect_eq]

omit [FloatOps F] in
theorem pts_kRowK (f : Buf (Elt F) (kLoc d)) :
    ((kRowK L).view.loc (V d (cV L) (jV L)) ↦[(kRowK L).view.set]{fullShare} f : sProp 𝕄) = kLoc d ↦[kRowSet (jL L)]{fullShare} f := by
  rw [set_kRowK]
omit [FloatOps F] in
theorem pts_pV (q : PosShare TreeShare) (f : Buf (Elt F) (pLoc d)) :
    ((pV : Memref sig .scVector .hbm S1 .i32).view.loc (V d (cV L) (jV L)) ↦{q} f : sProp 𝕄) = pLoc d ↦{q} f := rfl
omit [FloatOps F] in
theorem pts_sP (f : Buf (Elt F) ((V d (cV L) (jV L)).loc cc0_scratch0)) :
    ((sP : Memref sig .scVector .vmem S16 .i32).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch3)) :
    ((sR : Memref sig .scVector .vmem S256x128 .f32).view.loc (V d (cV L) (jV L)) ↦{fullShare} f : sProp 𝕄) = (V d (cV L) (jV L)).loc cc0_scratch3 ↦{fullShare} f := rfl

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The pointer's landing buffer and the staging buffer are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch3 ↦{fullShare} f)
          ∗ bigSep (((ownRefs (τ := τ) (.scVector (cV L) (jV L))).erase ((Proc.scVector (cV L) (jV L)).devRef cc0_scratch0)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩)]

/-! ## The body's side conditions and branches at pointer zero

With the pointer word zero every task's destination rows `256 (L 1) …` are a multiple of eight and end before row
65536, and the contiguous branch is taken; all decided over the sixteen grid points. -/

omit [FloatOps F] in
theorem chk0 : ∀ L : grid0.Coords, k0_chk1 L 0#32 := by decide +kernel
omit [FloatOps F] in
theorem cond0 : ∀ L : grid0.Coords, k0_cond1 L 0#32 = 1#1 := by decide +kernel
omit [FloatOps F] in
theorem off2_eq0 : ∀ L : grid0.Coords, k0_off2 L 0#32 = ![256 * (L 1).val, 0] := by decide +kernel

/-- The output rows the task writes at pointer zero, as the program slices them: block `L 1` of the 256. -/
abbrev oRect (L : grid0.Coords) : Rect S65536x128 := Rect.unit (s := S65536x128) (k0_off2 L 0#32) S256x128.size (k0_off2_inb L 0#32 (chk0 L) (cond0 L))
abbrev oRowK (L : grid0.Coords) : Memref sig .scVector .hbm S256x128 .f32 := (oV : Memref sig .scVector .hbm S65536x128 .f32).slice (oRect L) (fun _ => rfl)

omit [FloatOps F] in
theorem oRect_eq : oRect L = orow (up (jL L)) := by
  unfold oRect orow Rect.part Rect.block
  congr 1 <;> funext a
  · rw [off2_eq0]
    match a with
    | 0 => simp [Shape.partIx, Shape.partSize]; omega
    | 1 => simp [Shape.partIx, Shape.partSize]
  · match a with
    | 0 => simp [Shape.partSize]
    | 1 => simp [Shape.partSize]

omit [FloatOps F] in
theorem set_oRowK : (oRowK L).view.set = oRowSet (jL L) := by
  show ((oV : Memref sig .scVector .hbm S65536x128 .f32).view.slice (oRect L)).set
    = ((oV : Memref sig .scVector .hbm S65536x128 .f32).view.slice (orow (up (jL L)))).set
  rw [oRect_eq]

omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]

/-! ## The output rows as the program slices them at the loaded word -/

abbrev oRectW (L : grid0.Coords) (v : BitVec 32) (hw : k0_chk1 L v) (h1 : k0_cond1 L v = 1#1) : Rect S65536x128 :=
  Rect.unit (s := S65536x128) (k0_off2 L v) S256x128.size (k0_off2_inb L v hw h1)
abbrev oRowW (L : grid0.Coords) (v : BitVec 32) (hw : k0_chk1 L v) (h1 : k0_cond1 L v = 1#1) : Memref sig .scVector .hbm S256x128 .f32 :=
  (oV : Memref sig .scVector .hbm S65536x128 .f32).slice (oRectW L v hw h1) (fun _ => rfl)

omit [FloatOps F] in
theorem set_oRowW (v : BitVec 32) (hv : v = 0#32) (hw : k0_chk1 L v) (h1 : k0_cond1 L v = 1#1) : (oRowW L v hw h1).view.set = oRowSet (jL L) := by
  subst hv; exact set_oRowK L

omit [FloatOps F] in
theorem pts_oRowW (v : BitVec 32) (hv : v = 0#32) (hw : k0_chk1 L v) (h1 : k0_cond1 L v = 1#1) (f : Buf (Elt F) (oLoc d)) :
    ((oRowW L v hw h1).view.loc (V d (cV L) (jV L)) ↦[(oRowW L v hw h1).view.set]{fullShare} f : sProp 𝕄) = oLoc d ↦[oRowSet (jL L)]{fullShare} f := by
  rw [set_oRowW L v hv hw h1]

/-! ## The word the task loads

The pointer's one word lands in element 0 of the sixteen-word buffer; the load reads all sixteen and the body extracts
element 0: the pointer word, which the precondition makes zero. -/

omit [FloatOps F] in
theorem landPos : ∀ a, 0 < (Rect.unit (s := S16) ![0] S1.size inb_S16_S1_0).shape.size a := by decide
/-- The one index of the one-word landing rectangle. -/
abbrev z1 : (Rect.unit (s := S16) ![0] S1.size inb_S16_S1_0).shape.Idx := fun a => ⟨0, landPos a⟩

omit [FloatOps F] in
/-- Element 0 of the landing buffer, after the one-word write at offset 0, is the word written. -/
theorem read_landed {κ : Kind} {sp : Space} (v : View sig κ sp S16 .i32) (f : v.ty.Contents (Elt F))
    (w : (Rect.unit (s := S16) ![0] S1.size inb_S16_S1_0).shape.Idx → Elt F .i32) (y : S16.Idx) (hy : (y 0).val = 0) :
    v.read (Elt F) (v.writes (Elt F) f [⟨Rect.unit (s := S16) ![0] S1.size inb_S16_S1_0, w⟩]) y = w z1 := by
  have e : y = (Rect.unit (s := S16) ![0] S1.size inb_S16_S1_0).emb z1 := by
    funext a; apply Fin.ext
    obtain rfl : a = 0 := Subsingleton.elim _ _
    rw [Rect.emb_apply, hy]; rfl
  rw [e, View.read_writes_cons_emb]

omit [FloatOps F] in
theorem landed_zero (hp0 : m (pLoc d) = fun _ => (0#32 : BitVec 32)) (fp : Buf (Elt F) ((V d (cV L) (jV L)).loc cc0_scratch0)) :
    extractAt ![0] (k0_pay1 (View.readAt (Elt F) (sP : Memref sig .scVector .vmem S16 .i32).view (Rect.unit (s := S16) ![0] S16.size inb_S16_S16_0).toLoadRect
      ((sP : Memref sig .scVector .vmem S16 .i32).view.writes (Elt F) fp
        [⟨Rect.unit (s := S16) ![0] S1.size inb_S16_S1_0, ReadAs.same.apply (View.read (Elt F) (pV : Memref sig .scVector .hbm S1 .i32).view (m (pLoc d)))⟩])))
      inpos_S1_p0 = 0#32 := by
  unfold extractAt k0_pay1
  rw [shapeCast_self]
  unfold extractStridedSlice
  rw [View.readAt_apply]
  refine (read_landed _ _ _ _ ?_).trans ?_
  · rw [LoadRect.idx_apply]; rfl
  · rw [hp0]; rfl

/-! ## The wrapped branch is not taken at pointer zero -/

/-- The condition of the wrapped (indexed-copy) branch, as the body computes it from the loaded word. -/
def wrapCond (L : grid0.Coords) (v : BitVec 32) : BitVec 1 :=
  Scalar.cmpi .ne (Scalar.extui (Scalar.xori (Scalar.andi (Scalar.cmpi .eq (Scalar.andi v 7#32) 0#32)
    (Scalar.cmpi .sle (Scalar.andi (Scalar.addi v (Scalar.muli (BitVec.ofNat 32 (L 1).val) 256#32)) 65535#32) 65280#32)) 1#1)) 0#32

omit [FloatOps F] in
theorem wrapCond0 : ∀ L : grid0.Coords, ¬ (wrapCond L 0#32 = 1#1) := by decide +kernel

/-! ## What the write-out leaves in the task's output rows

The staging buffer holds key rows `256 (L 1) …` (the fetch fills it whole), and the write-out copies it onto output rows
`256 (L 1) …`: element `y` of the block lands at output row `256 (L 1) + y 0 < 4096`, column `y 1`, and is the key at that row
and column — the specification's value there. -/

omit [FloatOps F] in
theorem emb_k_val (y : S256x128.Idx) (a : Fin 2) : ((kRowK L).view.emb y a).val = (![256 * (L 1).val, 0] : Fin 2 → Nat) a + (y a).val := by
  show ((kRect L).emb y a).val = _
  rw [Rect.emb_apply]
  show k0_off1 L a + 1 * (y a).val = _
  rw [k0_off1_eq, Nat.one_mul]
omit [FloatOps F] in
theorem emb_o_val (y : S256x128.Idx) (a : Fin 2) : ((oRowK L).view.emb y a).val = (![256 * (L 1).val, 0] : Fin 2 → Nat) a + (y a).val := by
  show ((oRect L).emb y a).val = _
  rw [Rect.emb_apply]
  show k0_off2 L 0#32 a + 1 * (y a).val = _
  rw [off2_eq0, Nat.one_mul]

theorem wrote_enq (v : BitVec 32) (hv : v = 0#32) (hw : k0_chk1 L v) (h1 : k0_cond1 L v = 1#1)
    (fr : Buf (Elt F) ((V d (cV L) (jV L)).loc cc0_scratch3)) (i : S65536x128.Idx) (hi : i ∈ oRowSet (jL L)) :
    (oRowW L v hw h1).view.writes (Elt F) (m (qLoc d))
      [⟨Rect.whole S256x128, ReadAs.same.apply (View.read (Elt F) (sR : Memref sig .scVector .vmem S256x128 .f32).view
          (View.write (Elt F) (sR : Memref sig .scVector .vmem S256x128 .f32).view fr
            (ReadAs.same.apply (View.read (Elt F) (kRowK L).view (m (kLoc d)))) Finset.univ))⟩] i = G m d i := by
  subst hv
  rw [← set_oRowK L] at hi
  obtain ⟨y, -, rfl⟩ := Finset.mem_map.mp hi
  show (oRowK L).view.writes (Elt F) (m (qLoc d)) _ ((oRowK L).view.emb y) = _
  rw [← View.write_univ_eq_writes_whole (oRowK L).view (m (qLoc d)) [] _, View.writes_nil,
    View.write_emb_of_mem _ _ (Finset.mem_univ _)]
  rw [cast_eq]
  show View.read (Elt F) (View.whole cc0_scratch3) (View.write (Elt F) (View.whole cc0_scratch3) fr _ Finset.univ) y = _
  rw [View.read_whole, View.write_whole_univ]
  show View.read (Elt F) (kRowK L).view (m (kLoc d)) y = _
  rw [View.read_apply, cast_eq]
  have hy : (y 0).val < 256 := (y 0).isLt
  have hL : (L 1).val < 16 := (L 1).isLt
  have e0 : ((oRowK L).view.emb y 0).val = 256 * (L 1).val + (y 0).val := emb_o_val L y 0
  have h0 : ((oRowK L).view.emb y 0).val < 4096 := by rw [e0]; omega
  show _ = Cert.Spec.enq (m (kLoc d)) (m (qLoc d)) ((oRowK L).view.emb y)
  rw [Cert.Spec.enq_of_lt _ _ _ h0]
  refine congrArg (m (kLoc d)) ?_
  funext a; apply Fin.ext
  match a with
  | 0 => show ((kRowK L).view.emb y 0).val = ((oRowK L).view.emb y 0).val; rw [emb_k_val, emb_o_val]
  | 1 => show ((kRowK L).view.emb y 1).val = ((oRowK L).view.emb y 1).val; rw [emb_k_val, emb_o_val]

set_option maxHeartbeats 4000000 in
/-- The task on vector subcore `(L 0, L 1)` of device `d`: the pointer's fetch and its wait, the load and the check of
    the loaded word, the key rows' fetch and its wait, the write-out and its wait. -/
theorem tile_body (hF : (K (F := F)).Facts) (hp : ∀ d : Dev nD, m (pLoc d) = fun _ => (0#32 : BitVec 32))
    (O : CellTallies nD τ sig (HIx 1)) (W : Waits sig (HIx 1)) (hO : ∀ g, O g none = 0) :
    iprop(levAts (K (F := F)).L (K (F := F)).lev ∗ emp
        ∗ (kRowPts m d (jL L) ∗ pShPts m d (jL L) ∗ oRowPts d (jL L) (q0 m d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L kV (Memref.isWhole_whole _) pV (Memref.isWhole_whole _) oV (Memref.isWhole_whole _) oV (Memref.isWhole_whole _)
            sP (Memref.isWhole_whole _) sA (Memref.isWhole_whole _) sB (Memref.isWhole_whole _) sR (Memref.isWhole_whole _)
            cc0_scratch4 cc0_scoped0 cc0_scoped1 cc0_scoped2)
          fun _ => iprop((kRowPts m d (jL L) ∗ pShPts m d (jL L) ∗ oRowPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hk, Hp, Ho⟩, ⟨⟨%fp, Hsp⟩, ⟨%fr, Hsr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kRowK (F := F) d L _).symm) $$ Hk
  ihave Hp' := (Entails.of_eq (pts_pV (F := F) d L _ _).symm) $$ Hp
  ihave Hsp' := (Entails.of_eq (pts_sP (F := F) d L _).symm) $$ Hsp
  ihave Hsr' := (Entails.of_eq (pts_sR (F := F) d L _).symm) $$ Hsr
  -- the pointer's fetch, its wait, the load of the landing buffer: the run stops at the check of the loaded word
  sl_exec
  have hv5 : tile_body.sl.v5 m d L fp = 0#32 := landed_zero m d L (hp d) fp
  have hchk : k0_chk1 L (tile_body.sl.v5 m d L fp) := by rw [hv5]; exact chk0 L
  have hc1 : k0_cond1 L (tile_body.sl.v5 m d L fp) = 1#1 := by rw [hv5]; exact cond0 L
  ihave Ho' := (Entails.of_eq (pts_oRowW (F := F) d L _ hv5 hchk hc1 _).symm) $$ Ho
  -- the check of the loaded word, the key rows' fetch and its wait, the contiguous branch: the write-out and its wait
  sl_exec
  have h16 : ¬ (tile_body.sl.v16 m d L fp = 1#1) := by
    have e : tile_body.sl.v16 m d L fp = wrapCond L (tile_body.sl.v5 m d L fp) := rfl
    rw [e, hv5]; exact wrapCond0 L
  -- the wrapped branch, not taken
  sl_exec
  have hW : ∀ i ∈ oRowSet (jL L), ((oRowW L (tile_body.sl.v5 m d L fp) hchk hc1).view.writes (Elt F) (m (qLoc d))
      [⟨Rect.whole S256x128, tile_body.sl.dma0_2 m d L fr⟩]) i = G m d i :=
    wrote_enq m d L _ hv5 hchk hc1 fr
  sl_step
  ihave Ho'' := (Entails.of_eq (pts_oRowW (F := F) d L _ hv5 hchk hc1 _)) $$ Ho'
  isplitl [Hk' Hp' Ho'']
  · isplitl [Hk']; · iapply (Entails.of_eq (pts_kRowK (F := F) d L _)); iexact Hk'
    isplitl [Hp']; · iexact Hp'
    iapply (Entails.of_eq (pointsTo_congr hW)); iexact Ho''
  isplitl [Hsp' Hsr' Hbufs]
  · isplitl [Hsp']; · iexists _; iexact Hsp'
    isplitl [Hsr']; · iexists _; iexact Hsr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-- The body's obligation at every vector subcore, from the pointer being zero. -/
theorem tileSpec (hp : ∀ d : Dev nD, m (pLoc d) = fun _ => (0#32 : BitVec 32)) : TileSpec m :=
  fun d L O W hO => tile_body m d L facts hp O W hO

end Cert.Proof.KI

end
-- ==== Proof.BitsSetup.lean ====
/-
  The enqueue kernel as the SparseCore launch theorem sees it, and what its one call hands out and takes back.
  Sixteen vector subcores each move 256 consecutive key rows: subcore `j` reads the pointer word, copies key rows
  `256 j … 256 j + 255` into its own staging buffer and, the pointer being zero, writes them to the same rows of the
  output (which @main first fills with the queue). So the call takes the keys, the pointer and the output whole; task `j`
  takes key rows `256 j …`, a read share of the pointer (every task reads it) and output rows `256 j …` at the
  queue's contents, and hands back the output rows at the specification's contents (`Cert.Spec.enq`); output rows from
  4096 on stay with the call, untouched.
-/
import proofs.«202126_g10411000725760_week1_w2_54_16_alg».proof.Kernel
import proofs.«202126_g10411000725760_week1_w2_54_16_alg».proof.Proof.Gen.Kernel
import proofs.«202126_g10411000725760_week1_w2_54_16_alg».proof.Proof.Gen.Kernel.Skeleton
import proofs.«202126_g10411000725760_week1_w2_54_16_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the rows -/

variable (m : (ℓ : Loc nD τ sig) → Buf (Elt F) ℓ) (ρ : Dev nD → PrngReg)

/-- The keys, the queue and the pointer (the arguments) and the output (the result), as locations of device `d`. -/
abbrev kLoc (d : Dev nD) : Loc nD τ sig := (SparseCore.T d).loc main_arg0
abbrev qLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v0

/-- The output as the call finds it (the queue's contents) and as it leaves it (the enqueue at pointer zero). -/
abbrev q0 (d : Dev nD) : Buf (Elt F) (oLoc d) := m (qLoc d)
abbrev G (d : Dev nD) : Buf (Elt F) (oLoc d) := Cert.Spec.enq (m (kLoc d)) (m (qLoc d))

abbrev kV : Memref sig .scVector .hbm S4096x128 .f32 := Memref.whole main_arg0_scv
abbrev pV : Memref sig .scVector .hbm S1 .i32 := Memref.whole main_arg2_scv
abbrev oV : Memref sig .scVector .hbm S65536x128 .f32 := Memref.whole main_v0_scv
/-- A task's scratch: the pointer's landing buffer, the two index lists of the wrapped case, the staging buffer. -/
abbrev sP : Memref sig .scVector .vmem S16 .i32 := Memref.whole cc0_scratch0
abbrev sA : Memref sig .scVector .vmem S128 .i32 := Memref.whole cc0_scratch1
abbrev sB : Memref sig .scVector .vmem S128 .i32 := Memref.whole cc0_scratch2
abbrev sR : Memref sig .scVector .vmem S256x128 .f32 := Memref.whole cc0_scratch3

/-- The keys in sixteen blocks of 256 rows; the output in 256 such blocks, of which the tasks write the first sixteen. -/
theorem kdiv : 16 ∣ S4096x128.size 0 := ⟨256, rfl⟩
theorem odiv : 256 ∣ S65536x128.size 0 := ⟨256, rfl⟩
abbrev krow (j : Fin 16) : Rect S4096x128 := Rect.part (s := S4096x128) (a₀ := 0) kdiv j
abbrev orow (j : Fin 256) : Rect S65536x128 := Rect.part (s := S65536x128) (a₀ := 0) odiv j
abbrev kRowSet (j : Fin 16) : Finset S4096x128.Idx := ((kV : Memref sig .scVector .hbm S4096x128 .f32).view.slice (krow j)).set
abbrev oBlkSet (j : Fin 256) : Finset S65536x128.Idx := ((oV : Memref sig .scVector .hbm S65536x128 .f32).view.slice (orow j)).set
abbrev up (j : Fin 16) : Fin 256 := Fin.castLE (by decide) j
abbrev oRowSet (j : Fin 16) : Finset S65536x128.Idx := oBlkSet (up j)

/-- A read share of the pointer for each task (the call keeps the remainder). -/
abbrev pq (j : Fin 16) : PosShare TreeShare := Transfers.shareTok fullShare 16 j

variable [FloatOps F]

abbrev kPts (d : Dev nD) : sProp 𝕄 := kLoc d ↦{fullShare} m (kLoc d)
abbrev pPts (d : Dev nD) : sProp 𝕄 := pLoc d ↦{fullShare} m (pLoc d)
abbrev oPts (d : Dev nD) (f : Buf (Elt F) (oLoc d)) : sProp 𝕄 := oLoc d ↦{fullShare} f
abbrev kRowPts (d : Dev nD) (j : Fin 16) : sProp 𝕄 := kLoc d ↦[kRowSet j]{fullShare} m (kLoc d)
abbrev pShPts (d : Dev nD) (j : Fin 16) : sProp 𝕄 := pLoc d ↦{pq j} m (pLoc d)
abbrev oRowPts (d : Dev nD) (j : Fin 16) (f : Buf (Elt F) (oLoc d)) : sProp 𝕄 := oLoc d ↦[oRowSet j]{fullShare} f

/-- The one call takes the keys, the pointer and the output (at the queue's contents) whole and brings them back, the
    output at the enqueue's result; task `j` takes key rows `j`, its share of the pointer and output rows `j`. -/
def P : (K (F := F)).Pay (nD := nD) (Val := Elt F) (Name := ℕ) (U := UU) where
  st := fun q d _ => match q with | 0 => iprop(kPts m d ∗ pPts m d ∗ oPts d (q0 m d))
  dn := fun q d _ => match q with | 0 => iprop(kPts m d ∗ pPts m d ∗ oPts d (G m d))
  go := fun q d _ i => match q with
    | 0 => iprop(kRowPts m d (Fin.cast nSub_zero i) ∗ pShPts m d (Fin.cast nSub_zero i) ∗ oRowPts d (Fin.cast nSub_zero i) (q0 m d))
  td := fun q d _ i => match q with
    | 0 => iprop(kRowPts m d (Fin.cast nSub_zero i) ∗ pShPts m d (Fin.cast nSub_zero i) ∗ oRowPts d (Fin.cast nSub_zero i) (G m d))
  x := fun _ _ => iprop(emp)

instance P_storable : (P (F := F) m).IsStorable where
  st q d _ := match q with
    | 0 => (inferInstance : BI.Storable (upEmb : UEmb _ 𝕄) iprop(kPts m d ∗ pPts m d ∗ oPts d (q0 m d)))
  dn q d _ := match q with
    | 0 => (inferInstance : BI.Storable (upEmb : UEmb _ 𝕄) iprop(kPts m d ∗ pPts m d ∗ oPts d (G m d)))
  go q d _ i := match q with
    | 0 => (inferInstance : BI.Storable (upEmb : UEmb _ 𝕄)
        iprop(kRowPts m d (Fin.cast nSub_zero i) ∗ pShPts m d (Fin.cast nSub_zero i) ∗ oRowPts d (Fin.cast nSub_zero i) (q0 m d)))
  td q d _ i := match q with
    | 0 => (inferInstance : BI.Storable (upEmb : UEmb _ 𝕄)
        iprop(kRowPts m d (Fin.cast nSub_zero i) ∗ pShPts m d (Fin.cast nSub_zero i) ∗ oRowPts d (Fin.cast nSub_zero i) (G m d)))

/-! ## One task's obligation, as an interface between the body and the launch -/

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- What the body's proof establishes and the launch consumes: on the vector subcore at grid point `L`, from key rows
    `L 1`, a read share of the pointer and output rows `L 1` at the queue's contents, the kernel's function runs to its
    end and leaves the output rows at the enqueue's result, everything else as it found it. -/
def TileSpec : Prop :=
  ∀ (d : Dev nD) (L : grid0.Coords) (O : CellTallies nD τ sig (HIx 1)) (W : Waits sig (HIx 1)), (∀ g, O g none = 0) →
    iprop(levAts (K (F := F)).L (K (F := F)).lev ∗ emp
        ∗ (kRowPts m d (jL L) ∗ pShPts m d (jL L) ∗ oRowPts d (jL L) (q0 m d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L kV (Memref.isWhole_whole _) pV (Memref.isWhole_whole _) oV (Memref.isWhole_whole _) oV (Memref.isWhole_whole _)
            sP (Memref.isWhole_whole _) sA (Memref.isWhole_whole _) sB (Memref.isWhole_whole _) sR (Memref.isWhole_whole _)
            cc0_scratch4 cc0_scoped0 cc0_scoped1 cc0_scoped2)
          fun _ => iprop((kRowPts m d (jL L) ∗ pShPts m d (jL L) ∗ oRowPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.BitsLaunch.lean ====
/-
  The launch of the enqueue kernel: from one task's obligation (taken here as a hypothesis) to the run of the whole
  program. The call's operands are dealt to the sixteen tasks — the keys in sixteen blocks of 256 rows, a read share of
  the pointer each, the first sixteen blocks of 256 output rows — and gathered back; the output rows from 4096 on never
  leave the call, and there the queue's contents and the enqueue's result are the same. @main first copies the queue
  into the output buffer, then makes the one call; at the end the output holds the enqueue's result and the three
  arguments are as they were.
-/
import proofs.«202126_g10411000725760_week1_w2_54_16_alg».proof.Proof.BitsSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## One task's obligation, in the launch theorem's spelling -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          kV (Memref.isWhole_whole _) pV (Memref.isWhole_whole _) oV (Memref.isWhole_whole _) oV (Memref.isWhole_whole _)
          sP (Memref.isWhole_whole _) sA (Memref.isWhole_whole _) sB (Memref.isWhole_whole _) sR (Memref.isWhole_whole _)
          cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body's obligation is the launch theorem's obligation for a task: the kernel's function, entered through the
    body table on the vector subcore the task runs on. -/
theorem tileObl (hb : TileSpec m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-! ## The call's operands among the tasks, and back -/

omit [FloatOps F] in
theorem kRowSet_eq (j : Fin 16) : kRowSet j = (krow j).set := by
  show ((View.whole (main_arg0_scv : Ref sig .scVector)).slice (krow j)).set = _
  rw [View.set_slice]; exact Finset.map_refl
omit [FloatOps F] in
theorem kRows_disjoint : ∀ i ∈ (Finset.univ : Finset (Fin 16)), ∀ j ∈ (Finset.univ : Finset (Fin 16)), i ≠ j → Disjoint (kRowSet i) (kRowSet j) :=
  fun i _ j _ h => by rw [kRowSet_eq, kRowSet_eq]; exact Rect.part_disjoint kdiv h
omit [FloatOps F] in
theorem kRows_cover : (Finset.univ : Finset (Fin 16)).biUnion kRowSet = Finset.univ :=
  (Finset.biUnion_congr rfl fun i _ => kRowSet_eq i).trans (Rect.biUnion_part kdiv)

omit [FloatOps F] in
/-- The keys whole are their sixteen blocks of rows. -/
theorem kPts_rows (d : Dev nD) (f : Buf (Elt F) (kLoc d)) :
    (kLoc d ↦{fullShare} f : sProp 𝕄) = bigSep Finset.univ fun j : Fin 16 => kLoc d ↦[kRowSet j]{fullShare} f := by
  rw [← pointsTo_biUnion Finset.univ (ℓ := kLoc d) kRowSet kRows_disjoint, kRows_cover]; try rfl

omit [FloatOps F] in
theorem oRowSet_eq (j : Fin 16) : oRowSet j = (orow (up j)).set := by
  show ((View.whole (main_v0_scv : Ref sig .scVector)).slice (orow (up j))).set = _
  rw [View.set_slice]; exact Finset.map_refl
omit [FloatOps F] in
theorem oRows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv fun e => h (Fin.castLE_injective _ e)

/-- The output rows the tasks write: the first sixteen blocks of 256 rows. -/
abbrev oTask : Finset S65536x128.Idx := (Finset.univ : Finset (Fin 16)).biUnion oRowSet

omit [FloatOps F] in
/-- A row below 4096 lies in one of the first sixteen blocks: the one its number divided by 256 names. -/
theorem mem_oTask (i : S65536x128.Idx) (h : (i 0).val < 4096) : i ∈ oTask := by
  have h1 : (i 1).val < 128 := (i 1).isLt
  refine Finset.mem_biUnion.2 ⟨⟨(i 0).val / 256, by omega⟩, Finset.mem_univ _, ?_⟩
  rw [oRowSet_eq]
  refine Rect.mem_set_unit.2 (Fin.forall_fin_two.2 ⟨?_, ?_⟩)
  · show (i 0).val / 256 * 256 ≤ (i 0).val ∧ (i 0).val < (i 0).val / 256 * 256 + 256
    omega
  · show 0 * 128 ≤ (i 1).val ∧ (i 1).val < 0 * 128 + 128
    omega

omit [FloatOps F] in
/-- Off the tasks' rows — from row 4096 on — the enqueue's result is the queue's contents. -/
theorem rest_eq (d : Dev nD) : ∀ i ∈ (Finset.univ \ oTask : Finset S65536x128.Idx), q0 m d i = G m d i := by
  intro i hi
  have hn : ¬ (i 0).val < 4096 := fun hlt => (Finset.mem_sdiff.1 hi).2 (mem_oTask i hlt)
  exact (Cert.Spec.enq_of_ge _ _ i hn).symm

omit [FloatOps F] in
theorem oRest_eq (d : Dev nD) :
    (oLoc d ↦[Finset.univ \ oTask]{fullShare} q0 m d : sProp 𝕄) = oLoc d ↦[Finset.univ \ oTask]{fullShare} G m d :=
  pointsTo_congr (ℓ := oLoc d) (f := q0 m d) (g := G m d) (rest_eq m d)

omit [FloatOps F] in
/-- The output whole is the tasks' sixteen blocks of rows and the rest. -/
theorem oPts_split (d : Dev nD) (f : Buf (Elt F) (oLoc d)) :
    (oLoc d ↦{fullShare} f : sProp 𝕄)
      ⊣⊢ iprop((bigSep Finset.univ fun j : Fin 16 => oLoc d ↦[oRowSet j]{fullShare} f) ∗ oLoc d ↦[Finset.univ \ oTask]{fullShare} f) := by
  rw [← pointsTo_biUnion Finset.univ (ℓ := oLoc d) oRowSet oRows_disjoint]
  exact pointsTo_split_subset (Finset.subset_univ _)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands split among the sixteen tasks and their results gather into the call's: the keys block by
    block; the pointer a read share each, the remainder kept by the call and rejoined; the output's first sixteen blocks,
    the later rows kept by the call at the queue's contents, which there are the enqueue's result. -/
theorem vecSplit : (K (F := F)).VecSplit' (P m) 0 := by
  intro d c
  show iprop(kPts m d ∗ pPts m d ∗ oPts d (q0 m d)) ⊢ |={Set.univ}=> iprop(
      (bigSep Finset.univ fun i : Fin ((K (F := F)).nSub 0) =>
        iprop(kRowPts m d (Fin.cast nSub_zero i) ∗ pShPts m d (Fin.cast nSub_zero i) ∗ oRowPts d (Fin.cast nSub_zero i) (q0 m d)))
      ∗ ((bigSep Finset.univ fun i : Fin ((K (F := F)).nSub 0) =>
          iprop(kRowPts m d (Fin.cast nSub_zero i) ∗ pShPts m d (Fin.cast nSub_zero i) ∗ oRowPts d (Fin.cast nSub_zero i) (G m d)))
          -∗ iprop(kPts m d ∗ pPts m d ∗ oPts d (G m d))))
  rw [bigSep_tasks (F := F) (fun i => iprop(kRowPts m d i ∗ pShPts m d i ∗ oRowPts d i (q0 m d))),
    bigSep_tasks (F := F) (fun i => iprop(kRowPts m d i ∗ pShPts m d i ∗ oRowPts d i (G m d))), bigSep_sep', bigSep_sep', bigSep_sep', bigSep_sep']
  unfold kPts pPts oPts kRowPts pShPts oRowPts
  rw [kPts_rows]
  iintro ⟨Hk, Hp, Ho⟩
  ihave Hp' := (Transfers.pointsTo_toks_split fullShare 16) $$ Hp
  icases Hp' with ⟨Hpd, Hpt⟩
  ihave Ho' := (oPts_split d (q0 m d)).1 $$ Ho
  icases Ho' with ⟨Hor, Hox⟩
  imodintro
  isplitl [Hk Hpt Hor]
  · isplitl [Hk]; · iexact Hk
    isplitl [Hpt]; · iexact Hpt
    iexact Hor
  iintro ⟨Hk, Hpt, Hor⟩
  isplitl [Hk]; · iexact Hk
  isplitl [Hpd Hpt]
  · iapply (Transfers.pointsTo_toks_join fullShare 16)
    isplitl [Hpd]; · iexact Hpd
    iexact Hpt
  iapply (oPts_split d (G m d)).2
  isplitl [Hor]; · iexact Hor
  rw [← oRest_eq]
  iexact Hox

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev k' : DevRef τ sig := Proc.devRef .tc (main_arg0 : Ref sig .tc)
abbrev q' : DevRef τ sig := Proc.devRef .tc (main_arg1 : Ref sig .tc)
abbrev p' : DevRef τ sig := Proc.devRef .tc (main_arg2 : Ref sig .tc)
abbrev o' : DevRef τ sig := Proc.devRef .tc (main_v0 : Ref sig .tc)
/-- @main's first line: the queue copied into the output's buffer. -/
abbrev opCopy : HloOp τ sig (Elt F) := StableHlo.unary main_arg1 main_v0 id

/-- The TensorCore's arrays, all unscoped: the keys, the queue, the pointer, the output. -/
abbrev S4 : Finset (DevRef τ sig) := {k', q', p', o'}

omit [FloatOps F] in
theorem held_S4 (d : Dev nD) (W : Valuation τ sig (Elt F)) :
    (StableHlo.held (T d) S4 W : sProp 𝕄)
      = iprop((kLoc d ↦{fullShare} W k') ∗ (qLoc d ↦{fullShare} W q') ∗ (pLoc d ↦{fullShare} W p') ∗ oLoc d ↦{fullShare} W o') := by
  unfold StableHlo.held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((kLoc d ↦{fullShare} W main_arg0) ∗ (qLoc d ↦{fullShare} W main_arg1) ∗ (pLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = StableHlo.held (T d) S4 (V0 m d) := by
  rw [unscopedBufs_eq, held_S4]; rfl

theorem hCopy : (opCopy (F := F)).bufs ⊆ S4 := show ({q', o'} : Finset (DevRef τ sig)) ⊆ S4 by decide

/-- After the copy the output's buffer holds the queue's contents; the three arguments are as they were. -/
theorem held_copied (d : Dev nD) :
    (StableHlo.held (T d) S4 ((opCopy (F := F)).result (V0 m d)) : sProp 𝕄)
      = iprop(kPts m d ∗ (qLoc d ↦{fullShare} m (qLoc d)) ∗ pPts m d ∗ oPts d (q0 m d)) := by
  rw [held_S4,
    show (opCopy (F := F)).result (V0 m d) k' = V0 m d k' from StableHlo.unary_result_ne main_arg1 main_v0 id _ _ (V0 m d) (r := main_arg0) (by decide),
    show (opCopy (F := F)).result (V0 m d) q' = V0 m d q' from StableHlo.unary_result_ne main_arg1 main_v0 id _ _ (V0 m d) (r := main_arg1) (by decide),
    show (opCopy (F := F)).result (V0 m d) p' = V0 m d p' from StableHlo.unary_result_ne main_arg1 main_v0 id _ _ (V0 m d) (r := main_arg2) (by decide),
    show (opCopy (F := F)).result (V0 m d) o' = V0 m d q' from StableHlo.unary_result main_arg1 main_v0 id _ _ (V0 m d)]
  rfl

/-- What the call takes for the one SparseCore of its grid, and what it hands back. -/
theorem st0_eq (d : Dev nD) :
    (bigSep Finset.univ fun c : Fin ((K (F := F)).nCore 0) => (P m).st 0 d c) = iprop(kPts m d ∗ pPts m d ∗ oPts d (q0 m d)) :=
  bigSep_univ_of_subsingleton (0 : Fin 1)
theorem dn0_eq (d : Dev nD) :
    (bigSep Finset.univ fun c : Fin ((K (F := F)).nCore 0) => (P m).dn 0 d c) = iprop(kPts m d ∗ pPts m d ∗ oPts d (G m d)) :=
  bigSep_univ_of_subsingleton (0 : Fin 1)

/-- What @main leaves the claim: the three arguments at their launch contents, the output at the enqueue's result. -/
abbrev FIN (d : Dev nD) : sProp 𝕄 := iprop(kPts m d ∗ (qLoc d ↦{fullShare} m (qLoc d)) ∗ pPts m d ∗ oPts d (G m d))

/-- @main on device `d`'s TensorCore: the copy of the queue into the output's buffer, then the one call, from the keys,
    the pointer and the output and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the copy, over the four arrays
  iapply (StableHlo.wp_hlo_within 𝒱 (SparseCore.T d) none Set.univ (op := opCopy) (S := S4) hCopy (V := V0 m d)) $$ [Hb Hheld]
  · isplitl [Hb]; · iexact Hb
    iexact Hheld
  iintro ⟨Hb, Hheld⟩
  ihave Hh := (Entails.of_eq (held_copied (F := F) m d)) $$ Hheld
  icases Hh with ⟨Hk, Hq, Hp, Ho⟩
  rw [wp_ret]; imodintro
  -- the call: the keys, the pointer and the output to the SparseCore's sequencer and back
  iapply ((K (F := F)).wp_run (D (F := F)) 𝒱 (EH := EH) (P := P m) κ d 0) $$ [Hst Hk Hp Ho Hq]
  isplitr; · iexact Hctx
  isplitl [Hst]; · iexact Hst
  isplitl [Hk Hp Ho]
  · rw [st0_eq]
    isplitl [Hk]; · iexact Hk
    isplitl [Hp]; · iexact Hp
    iexact Ho
  iintro ⟨Hst, Hdn⟩
  ihave Hdn' := (Entails.of_eq (dn0_eq m d)) $$ Hdn
  icases Hdn' with ⟨Hk, Hp, Ho⟩
  imodintro
  isplitl [Hst]; · iexact Hst
  isplitl [Hk]; · iexact Hk
  isplitl [Hq]; · iexact Hq
  isplitl [Hp]; · iexact Hp
  iexact Ho

/-- What the final memory says: the output is the enqueue's result, the arguments are unchanged. -/
def fq (d : Dev nD) (s' : Phys nD τ sig (Elt F)) : Prop :=
  s'.mem.mem (oLoc d) = G m d ∧ s'.mem.mem (kLoc d) = m (kLoc d) ∧ s'.mem.mem (qLoc d) = m (qLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hk, Hq, Hp, Ho⟩, HSI⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%hq, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := oLoc d) (I := Finset.univ) (q := fullShare) (f := G m d)) $$ [HSI Ho]
  · isplitl [HSI] <;> iassumption
  icases H with %ho
  ipureintro
  exact ⟨funext fun i => ho i (Finset.mem_univ i), funext fun i => hk i (Finset.mem_univ i), funext fun i => hq i (Finset.mem_univ i),
    funext fun i => hp i (Finset.mem_univ i)⟩

/-! ## The program's run -/

def QC : PUnit × MemSt nD τ sig (Elt F) → Prop := fun r =>
  ∀ c : Dev nD, r.2.mem (oLoc c) = G m c ∧ r.2.mem (kLoc c) = m (kLoc c) ∧ r.2.mem (qLoc c) = m (qLoc c) ∧ r.2.mem (pLoc c) = m (pLoc c)

/-- Every weakly fair execution of the program's threads ends, nothing faulting, with the output at the enqueue's result
    and the arguments unchanged — given one task's obligation. -/
theorem run_main [∀ e, Nonempty (Elt F e)] (hb : TileSpec m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.BitsBody.lean ====
/-
  One task of the enqueue kernel, at a symbolic vector subcore `(L 0, L 1)`, under the precondition's fact that the ring
  pointer is zero. The task fetches the pointer's one word into element 0 of a sixteen-word buffer and loads it: the
  word is zero. Then the side conditions the body assumes of that word hold (its destination rows `256 (L 1) …` start at
  a multiple of eight and end before row 65536), the contiguous branch is taken and the wrapped one is not — all decided
  over the sixteen grid points at the word zero. The task copies key rows `256 (L 1) … 256 (L 1) + 255` into its staging
  buffer and the staging buffer onto output rows `256 (L 1) …`; each copy is waited for before its buffers are touched
  again. What the output rows then hold is, element by element, the key at the same row and column: the
  specification's value, since those rows are below 4096.
-/
import proofs.«202126_g10411000725760_week1_w2_54_16_alg».proof.Proof.BitsSetup
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- The task's three DMA semaphores: the pointer fetch's, the key rows fetch's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

/-- The key rows the task fetches, as the program slices them: rows `256 (L 1) …`, block `L 1` of the sixteen. -/
abbrev kRect (L : grid0.Coords) : Rect S4096x128 := Rect.unit (s := S4096x128) (k0_off1 L) S256x128.size (k0_off1_inb L)
abbrev kRowK (L : grid0.Coords) : Memref sig .scVector .hbm S256x128 .f32 := (kV : Memref sig .scVector .hbm S4096x128 .f32).slice (kRect L) (fun _ => rfl)

omit [FloatOps F] in
theorem kRect_eq : kRect L = krow (jL L) := by
  unfold kRect krow Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

omit [FloatOps F] in
theorem set_kRowK : (kRowK L).view.set = kRowSet (jL L) := by
  show ((kV : Memref sig .scVector .hbm S4096x128 .f32).view.slice (kRect L)).set
    = ((kV : Memref sig .scVector .hbm S4096x128 .f32).view.slice (krow (jL L))).set
  rw [kRect_eq]

omit [FloatOps F] in
theorem pts_kRowK (f : Buf (Elt F) (kLoc d)) :
    ((kRowK L).view.loc (V d (cV L) (jV L)) ↦[(kRowK L).view.set]{fullShare} f : sProp 𝕄) = kLoc d ↦[kRowSet (jL L)]{fullShare} f := by
  rw [set_kRowK]
omit [FloatOps F] in
theorem pts_pV (q : PosShare TreeShare) (f : Buf (Elt F) (pLoc d)) :
    ((pV : Memref sig .scVector .hbm S1 .i32).view.loc (V d (cV L) (jV L)) ↦{q} f : sProp 𝕄) = pLoc d ↦{q} f := rfl
omit [FloatOps F] in
theorem pts_sP (f : Buf (Elt F) ((V d (cV L) (jV L)).loc cc0_scratch0)) :
    ((sP : Memref sig .scVector .vmem S16 .i32).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch3)) :
    ((sR : Memref sig .scVector .vmem S256x128 .f32).view.loc (V d (cV L) (jV L)) ↦{fullShare} f : sProp 𝕄) = (V d (cV L) (jV L)).loc cc0_scratch3 ↦{fullShare} f := rfl

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The pointer's landing buffer and the staging buffer are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch3 ↦{fullShare} f)
          ∗ bigSep (((ownRefs (τ := τ) (.scVector (cV L) (jV L))).erase ((Proc.scVector (cV L) (jV L)).devRef cc0_scratch0)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩)]

/-! ## The body's side conditions and branches at pointer zero

With the pointer word zero every task's destination rows `256 (L 1) …` are a multiple of eight and end before row
65536, and the contiguous branch is taken; all decided over the sixteen grid points. -/

omit [FloatOps F] in
theorem chk0 : ∀ L : grid0.Coords, k0_chk1 L 0#32 := by decide +kernel
omit [FloatOps F] in
theorem cond0 : ∀ L : grid0.Coords, k0_cond1 L 0#32 = 1#1 := by decide +kernel
omit [FloatOps F] in
theorem off2_eq0 : ∀ L : grid0.Coords, k0_off2 L 0#32 = ![256 * (L 1).val, 0] := by decide +kernel

/-- The output rows the task writes at pointer zero, as the program slices them: block `L 1` of the 256. -/
abbrev oRect (L : grid0.Coords) : Rect S65536x128 := Rect.unit (s := S65536x128) (k0_off2 L 0#32) S256x128.size (k0_off2_inb L 0#32 (chk0 L) (cond0 L))
abbrev oRowK (L : grid0.Coords) : Memref sig .scVector .hbm S256x128 .f32 := (oV : Memref sig .scVector .hbm S65536x128 .f32).slice (oRect L) (fun _ => rfl)

omit [FloatOps F] in
theorem oRect_eq : oRect L = orow (up (jL L)) := by
  unfold oRect orow Rect.part Rect.block
  congr 1 <;> funext a
  · rw [off2_eq0]
    match a with
    | 0 => simp [Shape.partIx, Shape.partSize]; omega
    | 1 => simp [Shape.partIx, Shape.partSize]
  · match a with
    | 0 => simp [Shape.partSize]
    | 1 => simp [Shape.partSize]

omit [FloatOps F] in
theorem set_oRowK : (oRowK L).view.set = oRowSet (jL L) := by
  show ((oV : Memref sig .scVector .hbm S65536x128 .f32).view.slice (oRect L)).set
    = ((oV : Memref sig .scVector .hbm S65536x128 .f32).view.slice (orow (up (jL L)))).set
  rw [oRect_eq]

omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]

/-! ## The output rows as the program slices them at the loaded word -/

abbrev oRectW (L : grid0.Coords) (v : BitVec 32) (hw : k0_chk1 L v) (h1 : k0_cond1 L v = 1#1) : Rect S65536x128 :=
  Rect.unit (s := S65536x128) (k0_off2 L v) S256x128.size (k0_off2_inb L v hw h1)
abbrev oRowW (L : grid0.Coords) (v : BitVec 32) (hw : k0_chk1 L v) (h1 : k0_cond1 L v = 1#1) : Memref sig .scVector .hbm S256x128 .f32 :=
  (oV : Memref sig .scVector .hbm S65536x128 .f32).slice (oRectW L v hw h1) (fun _ => rfl)

omit [FloatOps F] in
theorem set_oRowW (v : BitVec 32) (hv : v = 0#32) (hw : k0_chk1 L v) (h1 : k0_cond1 L v = 1#1) : (oRowW L v hw h1).view.set = oRowSet (jL L) := by
  subst hv; exact set_oRowK L

omit [FloatOps F] in
theorem pts_oRowW (v : BitVec 32) (hv : v = 0#32) (hw : k0_chk1 L v) (h1 : k0_cond1 L v = 1#1) (f : Buf (Elt F) (oLoc d)) :
    ((oRowW L v hw h1).view.loc (V d (cV L) (jV L)) ↦[(oRowW L v hw h1).view.set]{fullShare} f : sProp 𝕄) = oLoc d ↦[oRowSet (jL L)]{fullShare} f := by
  rw [set_oRowW L v hv hw h1]

/-! ## The word the task loads

The pointer's one word lands in element 0 of the sixteen-word buffer; the load reads all sixteen and the body extracts
element 0: the pointer word, which the precondition makes zero. -/

omit [FloatOps F] in
theorem landPos : ∀ a, 0 < (Rect.unit (s := S16) ![0] S1.size inb_S16_S1_0).shape.size a := by decide
/-- The one index of the one-word landing rectangle. -/
abbrev z1 : (Rect.unit (s := S16) ![0] S1.size inb_S16_S1_0).shape.Idx := fun a => ⟨0, landPos a⟩

omit [FloatOps F] in
/-- Element 0 of the landing buffer, after the one-word write at offset 0, is the word written. -/
theorem read_landed {κ : Kind} {sp : Space} (v : View sig κ sp S16 .i32) (f : v.ty.Contents (Elt F))
    (w : (Rect.unit (s := S16) ![0] S1.size inb_S16_S1_0).shape.Idx → Elt F .i32) (y : S16.Idx) (hy : (y 0).val = 0) :
    v.read (Elt F) (v.writes (Elt F) f [⟨Rect.unit (s := S16) ![0] S1.size inb_S16_S1_0, w⟩]) y = w z1 := by
  have e : y = (Rect.unit (s := S16) ![0] S1.size inb_S16_S1_0).emb z1 := by
    funext a; apply Fin.ext
    obtain rfl : a = 0 := Subsingleton.elim _ _
    rw [Rect.emb_apply, hy]; rfl
  rw [e, View.read_writes_cons_emb]

omit [FloatOps F] in
theorem landed_zero (hp0 : m (pLoc d) = fun _ => (0#32 : BitVec 32)) (fp : Buf (Elt F) ((V d (cV L) (jV L)).loc cc0_scratch0)) :
    extractAt ![0] (k0_pay1 (View.readAt (Elt F) (sP : Memref sig .scVector .vmem S16 .i32).view (Rect.unit (s := S16) ![0] S16.size inb_S16_S16_0).toLoadRect
      ((sP : Memref sig .scVector .vmem S16 .i32).view.writes (Elt F) fp
        [⟨Rect.unit (s := S16) ![0] S1.size inb_S16_S1_0, ReadAs.same.apply (View.read (Elt F) (pV : Memref sig .scVector .hbm S1 .i32).view (m (pLoc d)))⟩])))
      inpos_S1_p0 = 0#32 := by
  unfold extractAt k0_pay1
  rw [shapeCast_self]
  unfold extractStridedSlice
  rw [View.readAt_apply]
  refine (read_landed _ _ _ _ ?_).trans ?_
  · rw [LoadRect.idx_apply]; rfl
  · rw [hp0]; rfl

/-! ## The wrapped branch is not taken at pointer zero -/

/-- The condition of the wrapped (indexed-copy) branch, as the body computes it from the loaded word. -/
def wrapCond (L : grid0.Coords) (v : BitVec 32) : BitVec 1 :=
  Scalar.cmpi .ne (Scalar.extui (Scalar.xori (Scalar.andi (Scalar.cmpi .eq (Scalar.andi v 7#32) 0#32)
    (Scalar.cmpi .sle (Scalar.andi (Scalar.addi v (Scalar.muli (BitVec.ofNat 32 (L 1).val) 256#32)) 65535#32) 65280#32)) 1#1)) 0#32

omit [FloatOps F] in
theorem wrapCond0 : ∀ L : grid0.Coords, ¬ (wrapCond L 0#32 = 1#1) := by decide +kernel

/-! ## What the write-out leaves in the task's output rows

The staging buffer holds key rows `256 (L 1) …` (the fetch fills it whole), and the write-out copies it onto output rows
`256 (L 1) …`: element `y` of the block lands at output row `256 (L 1) + y 0 < 4096`, column `y 1`, and is the key at that row
and column — the specification's value there. -/

omit [FloatOps F] in
theorem emb_k_val (y : S256x128.Idx) (a : Fin 2) : ((kRowK L).view.emb y a).val = (![256 * (L 1).val, 0] : Fin 2 → Nat) a + (y a).val := by
  show ((kRect L).emb y a).val = _
  rw [Rect.emb_apply]
  show k0_off1 L a + 1 * (y a).val = _
  rw [k0_off1_eq, Nat.one_mul]
omit [FloatOps F] in
theorem emb_o_val (y : S256x128.Idx) (a : Fin 2) : ((oRowK L).view.emb y a).val = (![256 * (L 1).val, 0] : Fin 2 → Nat) a + (y a).val := by
  show ((oRect L).emb y a).val = _
  rw [Rect.emb_apply]
  show k0_off2 L 0#32 a + 1 * (y a).val = _
  rw [off2_eq0, Nat.one_mul]

theorem wrote_enq (v : BitVec 32) (hv : v = 0#32) (hw : k0_chk1 L v) (h1 : k0_cond1 L v = 1#1)
    (fr : Buf (Elt F) ((V d (cV L) (jV L)).loc cc0_scratch3)) (i : S65536x128.Idx) (hi : i ∈ oRowSet (jL L)) :
    (oRowW L v hw h1).view.writes (Elt F) (m (qLoc d))
      [⟨Rect.whole S256x128, ReadAs.same.apply (View.read (Elt F) (sR : Memref sig .scVector .vmem S256x128 .f32).view
          (View.write (Elt F) (sR : Memref sig .scVector .vmem S256x128 .f32).view fr
            (ReadAs.same.apply (View.read (Elt F) (kRowK L).view (m (kLoc d)))) Finset.univ))⟩] i = G m d i := by
  subst hv
  rw [← set_oRowK L] at hi
  obtain ⟨y, -, rfl⟩ := Finset.mem_map.mp hi
  show (oRowK L).view.writes (Elt F) (m (qLoc d)) _ ((oRowK L).view.emb y) = _
  rw [← View.write_univ_eq_writes_whole (oRowK L).view (m (qLoc d)) [] _, View.writes_nil,
    View.write_emb_of_mem _ _ (Finset.mem_univ _)]
  rw [cast_eq]
  show View.read (Elt F) (View.whole cc0_scratch3) (View.write (Elt F) (View.whole cc0_scratch3) fr _ Finset.univ) y = _
  rw [View.read_whole, View.write_whole_univ]
  show View.read (Elt F) (kRowK L).view (m (kLoc d)) y = _
  rw [View.read_apply, cast_eq]
  have hy : (y 0).val < 256 := (y 0).isLt
  have hL : (L 1).val < 16 := (L 1).isLt
  have e0 : ((oRowK L).view.emb y 0).val = 256 * (L 1).val + (y 0).val := emb_o_val L y 0
  have h0 : ((oRowK L).view.emb y 0).val < 4096 := by rw [e0]; omega
  show _ = Cert.Spec.enq (m (kLoc d)) (m (qLoc d)) ((oRowK L).view.emb y)
  rw [Cert.Spec.enq_of_lt _ _ _ h0]
  refine congrArg (m (kLoc d)) ?_
  funext a; apply Fin.ext
  match a with
  | 0 => show ((kRowK L).view.emb y 0).val = ((oRowK L).view.emb y 0).val; rw [emb_k_val, emb_o_val]
  | 1 => show ((kRowK L).view.emb y 1).val = ((oRowK L).view.emb y 1).val; rw [emb_k_val, emb_o_val]

set_option maxHeartbeats 4000000 in
/-- The task on vector subcore `(L 0, L 1)` of device `d`: the pointer's fetch and its wait, the load and the check of
    the loaded word, the key rows' fetch and its wait, the write-out and its wait. -/
theorem tile_body (hF : (K (F := F)).Facts) (hp : ∀ d : Dev nD, m (pLoc d) = fun _ => (0#32 : BitVec 32))
    (O : CellTallies nD τ sig (HIx 1)) (W : Waits sig (HIx 1)) (hO : ∀ g, O g none = 0) :
    iprop(levAts (K (F := F)).L (K (F := F)).lev ∗ emp
        ∗ (kRowPts m d (jL L) ∗ pShPts m d (jL L) ∗ oRowPts d (jL L) (q0 m d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L kV (Memref.isWhole_whole _) pV (Memref.isWhole_whole _) oV (Memref.isWhole_whole _) oV (Memref.isWhole_whole _)
            sP (Memref.isWhole_whole _) sA (Memref.isWhole_whole _) sB (Memref.isWhole_whole _) sR (Memref.isWhole_whole _)
            cc0_scratch4 cc0_scoped0 cc0_scoped1 cc0_scoped2)
          fun _ => iprop((kRowPts m d (jL L) ∗ pShPts m d (jL L) ∗ oRowPts d (jL L) (G m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hk, Hp, Ho⟩, ⟨⟨%fp, Hsp⟩, ⟨%fr, Hsr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kRowK (F := F) d L _).symm) $$ Hk
  ihave Hp' := (Entails.of_eq (pts_pV (F := F) d L _ _).symm) $$ Hp
  ihave Hsp' := (Entails.of_eq (pts_sP (F := F) d L _).symm) $$ Hsp
  ihave Hsr' := (Entails.of_eq (pts_sR (F := F) d L _).symm) $$ Hsr
  -- the pointer's fetch, its wait, the load of the landing buffer: the run stops at the check of the loaded word
  sl_exec
  have hv5 : tile_body.sl.v5 m d L fp = 0#32 := landed_zero m d L (hp d) fp
  have hchk : k0_chk1 L (tile_body.sl.v5 m d L fp) := by rw [hv5]; exact chk0 L
  have hc1 : k0_cond1 L (tile_body.sl.v5 m d L fp) = 1#1 := by rw [hv5]; exact cond0 L
  ihave Ho' := (Entails.of_eq (pts_oRowW (F := F) d L _ hv5 hchk hc1 _).symm) $$ Ho
  -- the check of the loaded word, the key rows' fetch and its wait, the contiguous branch: the write-out and its wait
  sl_exec
  have h16 : ¬ (tile_body.sl.v16 m d L fp = 1#1) := by
    have e : tile_body.sl.v16 m d L fp = wrapCond L (tile_body.sl.v5 m d L fp) := rfl
    rw [e, hv5]; exact wrapCond0 L
  -- the wrapped branch, not taken
  sl_exec
  have hW : ∀ i ∈ oRowSet (jL L), ((oRowW L (tile_body.sl.v5 m d L fp) hchk hc1).view.writes (Elt F) (m (qLoc d))
      [⟨Rect.whole S256x128, tile_body.sl.dma0_2 m d L fr⟩]) i = G m d i :=
    wrote_enq m d L _ hv5 hchk hc1 fr
  sl_step
  ihave Ho'' := (Entails.of_eq (pts_oRowW (F := F) d L _ hv5 hchk hc1 _)) $$ Ho'
  isplitl [Hk' Hp' Ho'']
  · isplitl [Hk']; · iapply (Entails.of_eq (pts_kRowK (F := F) d L _)); iexact Hk'
    isplitl [Hp']; · iexact Hp'
    iapply (Entails.of_eq (pointsTo_congr hW)); iexact Ho''
  isplitl [Hsp' Hsr' Hbufs]
  · isplitl [Hsp']; · iexists _; iexact Hsp'
    isplitl [Hsr']; · iexists _; iexact Hsr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-- The body's obligation at every vector subcore, from the pointer being zero. -/
theorem tileSpec (hp : ∀ d : Dev nD, m (pLoc d) = fun _ => (0#32 : BitVec 32)) : TileSpec m :=
  fun d L O W hO => tile_body m d L facts hp O W hO

end Cert.Proof.KB

end
-- ==== Proof.lean ====
/-
  The enqueue of 4096 key rows into a ring queue of 65536 rows. The certificate's precondition makes the ring
  pointer zero, and at pointer zero both programs compute one array: rows 0 … 4095 are the key rows in order, every
  later row is the queue's own (`Cert.Spec.enq`). The kernel does it with sixteen tasks each copying 256 consecutive
  key rows over the same rows of a copy of the queue; the reference as a scatter whose index table, (0 + k) rem 65536
  with its sign corrections, is the identity on k < 4096. Each frame claim is its program's run with the result's
  value dropped; the algebraic claim names the common value and reads it off both runs, the reference's arguments
  being the kernel's.
-/
import proofs.«202126_g10411000725760_week1_w2_54_16_alg».proof.Defs
import proofs.«202126_g10411000725760_week1_w2_54_16_alg».proof.Proof.Gen.Kernel
import proofs.«202126_g10411000725760_week1_w2_54_16_alg».proof.Proof.Gen.KernelIdeal
import proofs.«202126_g10411000725760_week1_w2_54_16_alg».proof.Proof.Gen.ReferenceIdeal
import proofs.«202126_g10411000725760_week1_w2_54_16_alg».proof.Proof.Gen.Pre_input_domain
import proofs.«202126_g10411000725760_week1_w2_54_16_alg».proof.Proof.PreFacts
import proofs.«202126_g10411000725760_week1_w2_54_16_alg».proof.Proof.RefRun
import proofs.«202126_g10411000725760_week1_w2_54_16_alg».proof.Proof.IdealLaunch
import proofs.«202126_g10411000725760_week1_w2_54_16_alg».proof.Proof.IdealBody
import proofs.«202126_g10411000725760_week1_w2_54_16_alg».proof.Proof.BitsLaunch
import proofs.«202126_g10411000725760_week1_w2_54_16_alg».proof.Proof.BitsBody

noncomputable section

namespace Cert.Proof

open Idealize.ShloMosaic Idealize.SL.Sem

/-- The kernel as printed runs and leaves its three arguments as they were: its run, the result's value dropped. -/
theorem frame_Kernel :
    Cert.frame_Kernel (hKernel := Cert.Kernel.Gen.facts) (hPre_input_domain := Cert.Pre_input_domain.Gen.facts) := by
  intro m g hpre
  exact (θ_run _ _ _).mono (fun r h c => ⟨(h c).2.1, (h c).2.2.1, (h c).2.2.2⟩)
    (Cert.Proof.KB.run_main (F := Bits) m g (Cert.Proof.KB.tileSpec m (Cert.PreFacts.kernel_ptr m hpre)))

/-- The kernel read at the ideal instance runs and leaves its three arguments as they were. -/
theorem frame_KernelIdeal :
    Cert.frame_KernelIdeal (hKernelIdeal := Cert.KernelIdeal.Gen.facts) (hPre_input_domain := Cert.Pre_input_domain.Gen.facts) := by
  intro m g hpre
  exact (θ_run _ _ _).mono (fun r h c => ⟨(h c).2.1, (h c).2.2.1, (h c).2.2.2⟩)
    (Cert.Proof.KI.run_main (F := Ideal) m g (Cert.Proof.KI.tileSpec m (Cert.PreFacts.kernelIdeal_ptr m hpre)))

/-- The reference runs and leaves its three arguments as they were. -/
theorem frame_ReferenceIdeal :
    Cert.frame_ReferenceIdeal (hReferenceIdeal := Cert.ReferenceIdeal.Gen.facts) (hPre_input_domain := Cert.Pre_input_domain.Gen.facts) := by
  intro m g hpre
  exact (θ_run _ _ _).mono (fun r h c => (h c).2) (Cert.Ref.run m g (Cert.PreFacts.reference_ptr m hpre))

/-- The ideal pass rewrote nothing: the idealized kernel is the kernel's own text read at the ideal instance. -/
theorem preserves_Kernel_KernelIdeal : Cert.preserves_Kernel_KernelIdeal := trivial

/-- From memories agreeing on the arguments both programs end with the enqueue at pointer zero of the kernel's keys
    and queue: the kernel's run names it, and the reference's is the same term of its own arguments, which are the
    kernel's — its pointer zero because the kernel's is. -/
theorem algebraic_KernelIdeal_ReferenceIdeal :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hp := Cert.PreFacts.kernelIdeal_ptr m hpre
  have hp' : ∀ c : Dev Cert.ReferenceIdeal.nD,
      m' ((c.tc : Thread Cert.ReferenceIdeal.nD Cert.ReferenceIdeal.τ).loc Cert.ReferenceIdeal.main_arg2)
        = fun _ => (0#32 : BitVec 32) := fun c => (hagree c).2.2.trans (hp c)
  refine ⟨fun c => Cert.Proof.KI.G m c, ?_, ?_⟩
  · exact Cert.Proof.KI.run_main (F := Ideal) m g (Cert.Proof.KI.tileSpec m hp)
  · exact (θ_run _ _ _).mono
      (fun r h c => ⟨(h c).1.trans (by rw [(hagree c).1, (hagree c).2.1]), (h c).2.1, (h c).2.2.1, (h c).2.2.2⟩)
      (Cert.Ref.run m' g' hp')

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves_Kernel_KernelIdeal,
    algebraic_KernelIdeal_ReferenceIdeal⟩

end Cert.Proof

end
